-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S_ : Shape := ⟨0, ![]⟩
abbrev S4x8192 : Shape := ⟨2, ![4, 8192]⟩
abbrev S8x4x8192 : Shape := ⟨3, ![8, 4, 8192]⟩
abbrev S4x3x1024 : Shape := ⟨3, ![4, 3, 1024]⟩
abbrev S4x3x512 : Shape := ⟨3, ![4, 3, 512]⟩
abbrev S4x1024 : Shape := ⟨2, ![4, 1024]⟩
abbrev S4x512 : Shape := ⟨2, ![4, 512]⟩
abbrev S1x4x512 : Shape := ⟨3, ![1, 4, 512]⟩
abbrev S4x1x1024 : Shape := ⟨3, ![4, 1, 1024]⟩
abbrev S4x1024x1 : Shape := ⟨3, ![4, 1024, 1]⟩
abbrev S4x1x512 : Shape := ⟨3, ![4, 1, 512]⟩
abbrev S4x1024x512 : Shape := ⟨3, ![4, 1024, 512]⟩
abbrev S4 : Shape := ⟨1, ![4]⟩

abbrev nBuf : Space → Nat
  | .hbm => 29
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192, .f32⟩
  | .hbm, ⟨11, _⟩ => ⟨S8x4x8192, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S4x3x1024, .f32⟩
  | .local _ .vmem, ⟨1, _⟩ => ⟨S4x3x1024, .f32⟩
  | .local _ .vmem, ⟨2, _⟩ => ⟨S4x3x512, .f32⟩
  | .local _ .vmem, ⟨3, _⟩ => ⟨S4x3x512, .f32⟩
  | .local _ .vmem, ⟨4, _⟩ => ⟨S4x1024, .f32⟩
  | .local _ .vmem, ⟨5, _⟩ => ⟨S4x1024, .f32⟩
  | .local _ .vmem, ⟨6, _⟩ => ⟨S4x512, .f32⟩
  | .local _ .vmem, ⟨7, _⟩ => ⟨S4x512, .f32⟩
  | .local _ .vmem, ⟨8, _⟩ => ⟨S4x1024, .f32⟩
  | .local _ .vmem, ⟨9, _⟩ => ⟨S4x1024, .f32⟩
  | .local _ .vmem, ⟨10, _⟩ => ⟨S1x4x512, .f32⟩
  | .local _ .vmem, ⟨11, _⟩ => ⟨S1x4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_12 : BitVec 32 := 0#32
  let v51 : BitVec 1 := Scalar.cmpi .ne v50 c0_i32_12
  v51

def k0_cond2 (i : grid0.Coords) : BitVec 1 :=
  let arg1 : BitVec 32 := BitVec.ofNat 32 (i 1).val
  let c0_i32_13 : BitVec 32 := 0#32
  let v52 : BitVec 1 := Scalar.cmpi .ne arg1 c0_i32_13
  let v53 : BitVec 32 := Scalar.extui v52
  let c0_i32_14 : BitVec 32 := 0#32
  let v54 : BitVec 1 := Scalar.cmpi .ne v53 c0_i32_14
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S4x8192x3_S4x3x8192_0_2_1 : S4x8192x3.Transposes [0, 2, 1] S4x3x8192
  reducesTo_S4x8192x3_S4x8192_d2 : S4x8192x3.ReducesTo [2] S4x8192
  h_S_ : 0 < S_.numel
  inb_S4x3x1024_S4x3x1024_0_0_0 : ∀ a, (![0, 0, 0] : Fin 3 → Nat) a + S4x3x1024.size a ≤ S4x3x1024.size a
  h_S4x3x1024 : 0 < S4x3x1024.numel
  shapeCasts_S4x3x1024_S4x3x1024 : S4x3x1024.ShapeCasts S4x3x1024
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  slices_S4x3x1024_o0_0_0_S4x1x1024 : S4x3x1024.Slices ![0, 0, 0] S4x1x1024
  shapeCasts_S4x1x1024_S4x1024 : S4x1x1024.ShapeCasts S4x1024
  shapeCasts_S4x1024_S4x1024x1 : S4x1024.ShapeCasts S4x1024x1
  slices_S4x3x1024_o0_1_0_S4x1x1024 : S4x3x1024.Slices ![0, 1, 0] S4x1x1024
  slices_S4x3x1024_o0_2_0_S4x1x1024 : S4x3x1024.Slices ![0, 2, 0] S4x1x1024
  slices_S4x3x512_o0_0_0_S4x1x512 : S4x3x512.Slices ![0, 0, 0] S4x1x512
  shapeCasts_S4x1x512_S4x512 : S4x1x512.ShapeCasts S4x512
  shapeCasts_S4x512_S4x1x512 : S4x512.ShapeCasts S4x1x512
  slices_S4x3x512_o0_1_0_S4x1x512 : S4x3x512.Slices ![0, 1, 0] S4x1x512
  slices_S4x3x512_o0_2_0_S4x1x512 : S4x3x512.Slices ![0, 2, 0] S4x1x512
  broadcasts_S4x1024x1_S4x1024x512 : S4x1024x1.Broadcasts S4x1024x512
  broadcasts_S4x1x512_S4x1024x512 : S4x1x512.Broadcasts S4x1024x512
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x512_S4x512_0_0 : ∀ a, (![0, 0] : Fin 2 → Nat) a + S4x512.size a ≤ S4x512.size a
  h_S4x512 : 0 < S4x512.numel
  shapeCasts_S4x512_S4x512 : S4x512.ShapeCasts S4x512
  reduces_S4x1024x512_S4x1024 : S4x1024x512.Reduces [2] S4x1024
  reduces_S4x1024x512_S4x512 : S4x1024x512.Reduces [1] S4x512
  inb_S1x4x512_S1x4x512_0_0_0 : ∀ a, (![0, 0, 0] : Fin 3 → Nat) a + S1x4x512.size a ≤ S1x4x512.size a
  h_S1x4x512 : 0 < S1x4x512.numel
  shapeCasts_S1x4x512_S4x512 : S1x4x512.ShapeCasts S4x512
  shapeCasts_S4x512_S1x4x512 : S4x512.ShapeCasts S1x4x512
  reducesTo_S8x4x8192_S4x8192_d0 : S8x4x8192.ReducesTo [0] S4x8192
  reducesTo_S4x8192_S4_d1 : S4x8192.ReducesTo [1] S4
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x1024.size a ≤ S4x3x8192.size a
  hwx0_0 : ∀ i : grid0.Coords, EltTy.bits .f32 = 32 ∨ (Rect.block (s := S4x3x8192) S4x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x8192.size a
  hwx0_1 : ∀ i : grid0.Coords, EltTy.bits .f32 = 32 ∨ (Rect.block (s := S4x3x8192) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x8192.size a
  hwx0_3 : ∀ i : grid0.Coords, EltTy.bits .f32 = 32 ∨ (Rect.block (s := S4x8192) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x8192.size a
  hwx0_4 : ∀ i : grid0.Coords, EltTy.bits .f32 = 32 ∨ (Rect.block (s := S4x8192) S4x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x512.size a ≤ S8x4x8192.size a
  hwx0_5 : ∀ i : grid0.Coords, EltTy.bits .f32 = 32 ∨ (Rect.block (s := S8x4x8192) S1x4x512.size (cc0_transform_5 i) (hinb0_5 i)).WholeWords (EltTy.packing .f32)

variable [Facts₀]

abbrev win0_0 : Pipeline.Window sig grid0 :=
  Pipeline.Window.ofSpec (Memref.whole main_v0) S4x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S4x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x4x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x8192, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Bits.Body.lean ====
import proofs.«160890_j77094662964081_2_alg».proof.Proof.Gen.Kernel.Frame
import proofs.«160890_j77094662964081_2_alg».proof.Proof.Gen.Kernel.Skeleton

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branches of the body, over the grid

The grid is 8 × 16, walked with the second coordinate `j` fastest: point `t` has `j = t % 16`. The body
keeps the row minimum in its output block across the sixteen tiles of the reduced axis: at `j = 0` it stores
the tile's row minimum, at `j ≠ 0` it stores the minimum of what the block holds and the tile's. Exactly one
of the two branches is taken at every point. -/

/-- The first branch (`j = 0`) is taken exactly at the points that start a row of tiles. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (`j ≠ 0`) is taken exactly at the other points. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- What the body's stores leave in its two output blocks — the row-minimum block and the column-minimum
    block —, as lists of stored pieces (last store first), together with the body's run: from the four input
    blocks at given contents and the two output blocks at anything, it ends with the inputs as they were and
    each output block overwritten by its pieces. At a point that starts a row of tiles. -/
structure FirstRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (x0 : Vec F S4x3x1024 .f32) (x1 : Vec F S4x3x512 .f32) (x2 : Vec F S4x1024 .f32) (x3 : Vec F S4x512 .f32) where
  rows : List (View.Piece (Elt F) S4x1024 .f32)
  cols : List (View.Piece (Elt F) S1x4x512 .f32)
  run : ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f rows)
                ∗ (∃ f, arg7.view.loc (c : Thread nD τ) ↦[arg7.view.set]{fullShare} arg7.view.writes (Elt F) f cols)) -∗ K ⟨⟩))
          ⊢ wp frame (wpE (defs₀ (F := F)) Variants.none c none) E (cc0__chamfer_kernel i arg2 harg2 arg3 harg3 arg4 harg4 arg5 harg5 arg6 harg6 arg7 harg7) K

/-- The same at a later tile of the row, where the row-minimum block is read before it is overwritten: it holds `acc`
    on entry. -/
structure LaterRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (x0 : Vec F S4x3x1024 .f32) (x1 : Vec F S4x3x512 .f32) (x2 : Vec F S4x1024 .f32) (x3 : Vec F S4x512 .f32) (acc : Vec F S4x1024 .f32) where
  rows : List (View.Piece (Elt F) S4x1024 .f32)
  cols : List (View.Piece (Elt F) S1x4x512 .f32)
  run : ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare acc ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f rows)
                ∗ (∃ f, arg7.view.loc (c : Thread nD τ) ↦[arg7.view.set]{fullShare} arg7.view.writes (Elt F) f cols)) -∗ K ⟨⟩))
          ⊢ wp frame (wpE (defs₀ (F := F)) Variants.none c none) E (cc0__chamfer_kernel i arg2 harg2 arg3 harg3 arg4 harg4 arg5 harg5 arg6 harg6 arg7 harg7) K

set_option maxHeartbeats 1000000 in
/-- The body at a point that starts a row of tiles: the symbolic run of its loads and stores, the first branch
    taken and the second not. -/
noncomputable def firstRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (h1 : k0_cond1 i = 1#1) (h2 : ¬ k0_cond2 i = 1#1)
    (x0 : Vec F S4x3x1024 .f32) (x1 : Vec F S4x3x512 .f32) (x2 : Vec F S4x1024 .f32) (x3 : Vec F S4x512 .f32) :
    FirstRun (F := F) c i arg2 harg2 arg3 harg3 arg4 harg4 arg5 harg5 arg6 harg6 arg7 harg7 x0 x1 x2 x3 := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 1000000 in
/-- The body at a later tile of the row: the first branch not taken, the second taken. -/
noncomputable def laterRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (h1 : ¬ k0_cond1 i = 1#1) (h2 : k0_cond2 i = 1#1)
    (x0 : Vec F S4x3x1024 .f32) (x1 : Vec F S4x3x512 .f32) (x2 : Vec F S4x1024 .f32) (x3 : Vec F S4x512 .f32) (acc : Vec F S4x1024 .f32) :
    LaterRun (F := F) c i arg2 harg2 arg3 harg3 arg4 harg4 arg5 harg5 arg6 harg6 arg7 harg7 x0 x1 x2 x3 acc := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Chamfer

end
-- ==== Proof.Bits.Data.lean ====
import proofs.«160890_j77094662964081_2_alg».proof.Proof.Bits.Body

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

/-- One staging buffer of each output window, through which its contents are stated (the choice does not matter:
    pieces that cover a block read back the same through any whole buffer). -/
abbrev rowView : View sig .tc .vmem S4x1024 .f32 := (Memref.whole cc0_stg4_0 : Memref sig .tc .vmem S4x1024 .f32).view
abbrev colView : View sig .tc .vmem S1x4x512 .f32 := (Memref.whole cc0_stg5_0 : Memref sig .tc .vmem S1x4x512 .f32).view

/-- Each window's current staging buffer at point `t`, as the pipeline passes it to the body, and its wholeness. -/
abbrev ms0 (t : Fin cfg0.N) : Memref sig .tc .vmem S4x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4x512 .f32 := win0_5.stage (cfg0.slots t 5)
abbrev hs5 (t : Fin cfg0.N) : (ms5 t).IsWhole := hstage0_5 ((cfg0.slots t 5).cast nbuf0_5)

/-! ## What one run of the body leaves in the output blocks -/

section OneRun
variable (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (x0 : Vec F S4x3x1024 .f32) (x1 : Vec F S4x3x512 .f32) (x2 : Vec F S4x1024 .f32) (x3 : Vec F S4x512 .f32)

/-- At a point that starts a row of tiles the stores into the row-minimum block tile it, -/
theorem rows_cover_first (h1 : k0_cond1 i = 1#1) (h2 : ¬ k0_cond2 i = 1#1) (y : S4x1024.Idx) :
    ∃ pc ∈ (firstRun (F := F) c i arg2 harg2 arg3 harg3 arg4 harg4 arg5 harg5 arg6 harg6 arg7 harg7 h1 h2 x0 x1 x2 x3).rows, y ∈ pc.1.set :=
  View.cover_of_tiledL (firstRun (F := F) c i arg2 harg2 arg3 harg3 arg4 harg4 arg5 harg5 arg6 harg6 arg7 harg7 h1 h2 x0 x1 x2 x3).rows S4x1024.size (by sl_kernel_rfl) y
/-- and so do the stores into the column-minimum block. -/
theorem cols_cover_first (h1 : k0_cond1 i = 1#1) (h2 : ¬ k0_cond2 i = 1#1) (y : S1x4x512.Idx) :
    ∃ pc ∈ (firstRun (F := F) c i arg2 harg2 arg3 harg3 arg4 harg4 arg5 harg5 arg6 harg6 arg7 harg7 h1 h2 x0 x1 x2 x3).cols, y ∈ pc.1.set :=
  View.cover_of_tiledL (firstRun (F := F) c i arg2 harg2 arg3 harg3 arg4 harg4 arg5 harg5 arg6 harg6 arg7 harg7 h1 h2 x0 x1 x2 x3).cols S1x4x512.size (by sl_kernel_rfl) y
/-- The same at a later tile of the row. -/
theorem rows_cover_later (h1 : ¬ k0_cond1 i = 1#1) (h2 : k0_cond2 i = 1#1) (acc : Vec F S4x1024 .f32) (y : S4x1024.Idx) :
    ∃ pc ∈ (laterRun (F := F) c i arg2 harg2 arg3 harg3 arg4 harg4 arg5 harg5 arg6 harg6 arg7 harg7 h1 h2 x0 x1 x2 x3 acc).rows, y ∈ pc.1.set :=
  View.cover_of_tiledL (laterRun (F := F) c i arg2 harg2 arg3 harg3 arg4 harg4 arg5 harg5 arg6 harg6 arg7 harg7 h1 h2 x0 x1 x2 x3 acc).rows S4x1024.size (by sl_kernel_rfl) y
theorem cols_cover_later (h1 : ¬ k0_cond1 i = 1#1) (h2 : k0_cond2 i = 1#1) (acc : Vec F S4x1024 .f32) (y : S1x4x512.Idx) :
    ∃ pc ∈ (laterRun (F := F) c i arg2 harg2 arg3 harg3 arg4 harg4 arg5 harg5 arg6 harg6 arg7 harg7 h1 h2 x0 x1 x2 x3 acc).cols, y ∈ pc.1.set :=
  View.cover_of_tiledL (laterRun (F := F) c i arg2 harg2 arg3 harg3 arg4 harg4 arg5 harg5 arg6 harg6 arg7 harg7 h1 h2 x0 x1 x2 x3 acc).cols S1x4x512.size (by sl_kernel_rfl) y

/-- The row-minimum block after the body at a point that starts a row of tiles: its pieces read back. -/
def rowsFirst (h1 : k0_cond1 i = 1#1) (h2 : ¬ k0_cond2 i = 1#1) : Vec F S4x1024 .f32 :=
  rowView.read (Elt F) (rowView.writes (Elt F) rowView.junk (firstRun (F := F) c i arg2 harg2 arg3 harg3 arg4 harg4 arg5 harg5 arg6 harg6 arg7 harg7 h1 h2 x0 x1 x2 x3).rows)
/-- The column-minimum block after the body there. -/
def colsFirst (h1 : k0_cond1 i = 1#1) (h2 : ¬ k0_cond2 i = 1#1) : Vec F S1x4x512 .f32 :=
  colView.read (Elt F) (colView.writes (Elt F) colView.junk (firstRun (F := F) c i arg2 harg2 arg3 harg3 arg4 harg4 arg5 harg5 arg6 harg6 arg7 harg7 h1 h2 x0 x1 x2 x3).cols)
/-- The row-minimum block after the body at a later tile, from what it held on entry. -/
def rowsLater (h1 : ¬ k0_cond1 i = 1#1) (h2 : k0_cond2 i = 1#1) (acc : Vec F S4x1024 .f32) : Vec F S4x1024 .f32 :=
  rowView.read (Elt F) (rowView.writes (Elt F) rowView.junk (laterRun (F := F) c i arg2 harg2 arg3 harg3 arg4 harg4 arg5 harg5 arg6 harg6 arg7 harg7 h1 h2 x0 x1 x2 x3 acc).rows)
/-- The column-minimum block after the body there. -/
def colsLater (h1 : ¬ k0_cond1 i = 1#1) (h2 : k0_cond2 i = 1#1) (acc : Vec F S4x1024 .f32) : Vec F S1x4x512 .f32 :=
  colView.read (Elt F) (colView.writes (Elt F) colView.junk (laterRun (F := F) c i arg2 harg2 arg3 harg3 arg4 harg4 arg5 harg5 arg6 harg6 arg7 harg7 h1 h2 x0 x1 x2 x3 acc).cols)

end OneRun

/-! ## What the output blocks hold after each point -/

/-- THE ACCUMULATION along a row of tiles. The row-minimum block after the body at position `n`: at a point that
    starts a row of tiles what the first branch stores; at a later one what the second branch stores over what the
    point before left (the block is not written back in between). -/
def rowsAt (c : Dev nD) : (n : ℕ) → n < cfg0.N → Vec F S4x1024 .f32
  | 0, hn => rowsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (iblk m c 0 ⟨0, hn⟩) (iblk m c 1 ⟨0, hn⟩) (iblk m c 2 ⟨0, hn⟩) (iblk m c 3 ⟨0, hn⟩)
      ((first_iff ⟨0, hn⟩).mpr (Nat.zero_mod _)) (fun h => (later_iff ⟨0, hn⟩).mp h (Nat.zero_mod _))
  | n + 1, hn =>
    if h0 : (n + 1) % 16 = 0 then
      rowsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (iblk m c 0 ⟨n + 1, hn⟩) (iblk m c 1 ⟨n + 1, hn⟩) (iblk m c 2 ⟨n + 1, hn⟩) (iblk m c 3 ⟨n + 1, hn⟩)
        ((first_iff ⟨n + 1, hn⟩).mpr h0) (fun h => (later_iff ⟨n + 1, hn⟩).mp h h0)
    else
      rowsLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (iblk m c 0 ⟨n + 1, hn⟩) (iblk m c 1 ⟨n + 1, hn⟩) (iblk m c 2 ⟨n + 1, hn⟩) (iblk m c 3 ⟨n + 1, hn⟩)
        (fun h => h0 ((first_iff ⟨n + 1, hn⟩).mp h)) ((later_iff ⟨n + 1, hn⟩).mpr h0) (rowsAt c n (Nat.lt_of_succ_lt hn))

/-- The row-minimum block at the point before `t` (at `t` itself when `t` is the first). -/
abbrev rowsBefore (c : Dev nD) (t : Fin cfg0.N) : Vec F S4x1024 .f32 :=
  rowsAt m c (t.val - 1) (Nat.lt_of_le_of_lt (Nat.sub_le _ _) t.isLt)

/-- The column-minimum block after the body at point `t`: fresh at every point. -/
def colsAt (c : Dev nD) (t : Fin cfg0.N) : Vec F S1x4x512 .f32 :=
  if h0 : t.val % 16 = 0 then
    colsFirst c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) ((first_iff t).mpr h0) (fun h => (later_iff t).mp h h0)
  else
    colsLater c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (fun h => h0 ((first_iff t).mp h)) ((later_iff t).mpr h0) (rowsBefore m c t)

theorem rowsAt_first (c : Dev nD) (t : Fin cfg0.N) (h0 : t.val % 16 = 0) :
    rowsAt m c t.val t.isLt = rowsFirst c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) ((first_iff t).mpr h0) (fun h => (later_iff t).mp h h0) := by
  obtain ⟨n, hn⟩ := t
  cases n with
  | zero => exact rfl
  | succ n => exact (dif_pos h0).trans rfl

theorem rowsAt_later (c : Dev nD) (t : Fin cfg0.N) (h0 : ¬ t.val % 16 = 0) :
    rowsAt m c t.val t.isLt = rowsLater c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (fun h => h0 ((first_iff t).mp h)) ((later_iff t).mpr h0) (rowsBefore m c t) := by
  obtain ⟨n, hn⟩ := t
  cases n with
  | zero => exact (by exfalso; (try dsimp only at h0); exact absurd (Nat.zero_mod _) h0)
  | succ n => exact (dif_neg h0).trans rfl

theorem colsAt_first (c : Dev nD) (t : Fin cfg0.N) (h0 : t.val % 16 = 0) :
    colsAt m c t = colsFirst c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) ((first_iff t).mpr h0) (fun h => (later_iff t).mp h h0) :=
  dif_pos h0

theorem colsAt_later (c : Dev nD) (t : Fin cfg0.N) (h0 : ¬ t.val % 16 = 0) :
    colsAt m c t = colsLater c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (fun h => h0 ((first_iff t).mp h)) ((later_iff t).mpr h0) (rowsBefore m c t) :=
  dif_neg h0

/-! ## The pipeline's proof data -/

/-- The proof data of the one pipeline on core `c`: the arrays as the region finds them; after the body at point
    `t` each input's buffer at its block, the row-minimum buffer at `rowsAt`, the column-minimum buffer at `colsAt`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsAt m c t.val t.isLt
    | ⟨5, _⟩ => colsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = rowsAt m c t.val t.isLt := by dsimp only [dats]
theorem after5 (c : Dev nD) (t : Fin cfg0.N) : (dats m 0 c).after 5 t = colsAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- One of the two branches is taken at every grid point, so the row-minimum window is stored into at every point. -/
theorem rows_live : ∀ i : grid0.Coords, cfg0.idle 4 i = false := by
  intro i
  show (!(k0_cond1 i == 1#1) && !(k0_cond2 i == 1#1)) = false
  unfold k0_cond1 k0_cond2
  generalize i 1 = j
  revert j
  decide

/-- At a later tile of a row the row-minimum buffer holds what the body left at the point before: the point is not
    the first, and the block is written back only after the last tile of a row. -/
theorem before4_later (c : Dev nD) (t : Fin cfg0.N) (h0 : ¬ t.val % 16 = 0) (d) :
    (dats m 0 c).before 4 t d = rowsBefore m c t := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    rows_live (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point either starts a row of tiles or not; in
    the second case the row-minimum buffer holds what the point before left; so the matching run applies, and what
    its pieces read back is what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 16 = 0
  · rw [rowsAt_first m c t h0, colsAt_first m c t h0]
    unfold rowsFirst colsFirst
    iintro ⟨HΦ, Ho, ⟨%d0, H0⟩, ⟨%d1, H1⟩, ⟨%d2, H2⟩, ⟨%d3, H3⟩, ⟨%d4, H4⟩, ⟨%d5, H5⟩⟩
    iapply ((firstRun c (grid0.coords t) _ _ _ _ _ _ _ _ _ _ _ _ ((first_iff t).mpr h0) (fun h => (later_iff t).mp h h0) (iblk m c 0 t) (iblk m c 1 t) (iblk m c 2 t) (iblk m c 3 t)).run Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (rows_cover_first c _ _ _ _ _ _ _ _ _ _ _ _ _ _ _ _ _ _ _)
    · unfold owns; iexists _; isplitr
      swap; · iexact H5
      ipureintro; exact View.read_writes_of_cover _ _ _ _ _ (cols_cover_first c _ _ _ _ _ _ _ _ _ _ _ _ _ _ _ _ _ _ _)
  · rw [rowsAt_later m c t h0, colsAt_later m c t h0]
    simp only [before4_later m c t h0]
    unfold rowsLater colsLater
    iintro ⟨HΦ, Ho, ⟨%d0, H0⟩, ⟨%d1, H1⟩, ⟨%d2, H2⟩, ⟨%d3, H3⟩, ⟨%d4, H4⟩, ⟨%d5, H5⟩⟩
    iapply ((laterRun c (grid0.coords t) _ _ _ _ _ _ _ _ _ _ _ _ (fun h => h0 ((first_iff t).mp h)) ((later_iff t).mpr h0) (iblk m c 0 t) (iblk m c 1 t) (iblk m c 2 t) (iblk m c 3 t) (rowsBefore m c t)).run Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (rows_cover_later c _ _ _ _ _ _ _ _ _ _ _ _ _ _ _ _ _ _ _ _)
    · unfold owns; iexists _; isplitr
      swap; · iexact H5
      ipureintro; exact View.read_writes_of_cover _ _ _ _ _ (cols_cover_later c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have hl : cfg0.idle (4 : Fin 6) (cfg0.grid.coords t) = false := rows_live _
  rw [hl]
  exact sound_body m c t

/-! ## The run and the frame -/

set_option backward.isDefEq.respectTransparency.types false in
/-- Every weakly fair execution of the program terminates, and every final state has every array of the pipeline at
    what the proof data says and every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Chamfer

end
-- ==== Proof.Ideal.Body.lean ====
import proofs.«160890_j77094662964081_2_alg».proof.Proof.Gen.KernelIdeal.Frame
import proofs.«160890_j77094662964081_2_alg».proof.Proof.Gen.KernelIdeal.Skeleton

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branches of the body, over the grid

The grid is 8 × 16, walked with the second coordinate `j` fastest: point `t` has `j = t % 16`. The body
keeps the row minimum in its output block across the sixteen tiles of the reduced axis: at `j = 0` it stores
the tile's row minimum, at `j ≠ 0` it stores the minimum of what the block holds and the tile's. Exactly one
of the two branches is taken at every point. -/

/-- The first branch (`j = 0`) is taken exactly at the points that start a row of tiles. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (`j ≠ 0`) is taken exactly at the other points. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- What the body's stores leave in its two output blocks — the row-minimum block and the column-minimum
    block —, as lists of stored pieces (last store first), together with the body's run: from the four input
    blocks at given contents and the two output blocks at anything, it ends with the inputs as they were and
    each output block overwritten by its pieces. At a point that starts a row of tiles. -/
structure FirstRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (x0 : Vec F S4x3x1024 .f32) (x1 : Vec F S4x3x512 .f32) (x2 : Vec F S4x1024 .f32) (x3 : Vec F S4x512 .f32) where
  rows : List (View.Piece (Elt F) S4x1024 .f32)
  cols : List (View.Piece (Elt F) S1x4x512 .f32)
  run : ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f rows)
                ∗ (∃ f, arg7.view.loc (c : Thread nD τ) ↦[arg7.view.set]{fullShare} arg7.view.writes (Elt F) f cols)) -∗ K ⟨⟩))
          ⊢ wp frame (wpE (defs₀ (F := F)) Variants.none c none) E (cc0__chamfer_kernel i arg2 harg2 arg3 harg3 arg4 harg4 arg5 harg5 arg6 harg6 arg7 harg7) K

/-- The same at a later tile of the row, where the row-minimum block is read before it is overwritten: it holds `acc`
    on entry. -/
structure LaterRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (x0 : Vec F S4x3x1024 .f32) (x1 : Vec F S4x3x512 .f32) (x2 : Vec F S4x1024 .f32) (x3 : Vec F S4x512 .f32) (acc : Vec F S4x1024 .f32) where
  rows : List (View.Piece (Elt F) S4x1024 .f32)
  cols : List (View.Piece (Elt F) S1x4x512 .f32)
  run : ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare acc ∗ (∃ d, owns (c : Thread nD τ) arg7 fullShare d)
            ∗ (iprop(owns (c : Thread nD τ) arg2 fullShare x0 ∗ owns (c : Thread nD τ) arg3 fullShare x1
            ∗ owns (c : Thread nD τ) arg4 fullShare x2 ∗ owns (c : Thread nD τ) arg5 fullShare x3
                ∗ (∃ f, arg6.view.loc (c : Thread nD τ) ↦[arg6.view.set]{fullShare} arg6.view.writes (Elt F) f rows)
                ∗ (∃ f, arg7.view.loc (c : Thread nD τ) ↦[arg7.view.set]{fullShare} arg7.view.writes (Elt F) f cols)) -∗ K ⟨⟩))
          ⊢ wp frame (wpE (defs₀ (F := F)) Variants.none c none) E (cc0__chamfer_kernel i arg2 harg2 arg3 harg3 arg4 harg4 arg5 harg5 arg6 harg6 arg7 harg7) K

set_option maxHeartbeats 1000000 in
/-- The body at a point that starts a row of tiles: the symbolic run of its loads and stores, the first branch
    taken and the second not. -/
noncomputable def firstRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (h1 : k0_cond1 i = 1#1) (h2 : ¬ k0_cond2 i = 1#1)
    (x0 : Vec F S4x3x1024 .f32) (x1 : Vec F S4x3x512 .f32) (x2 : Vec F S4x1024 .f32) (x3 : Vec F S4x512 .f32) :
    FirstRun (F := F) c i arg2 harg2 arg3 harg3 arg4 harg4 arg5 harg5 arg6 harg6 arg7 harg7 x0 x1 x2 x3 := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 1000000 in
/-- The body at a later tile of the row: the first branch not taken, the second taken. -/
noncomputable def laterRun (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (h1 : ¬ k0_cond1 i = 1#1) (h2 : k0_cond2 i = 1#1)
    (x0 : Vec F S4x3x1024 .f32) (x1 : Vec F S4x3x512 .f32) (x2 : Vec F S4x1024 .f32) (x3 : Vec F S4x512 .f32) (acc : Vec F S4x1024 .f32) :
    LaterRun (F := F) c i arg2 harg2 arg3 harg3 arg4 harg4 arg5 harg5 arg6 harg6 arg7 harg7 x0 x1 x2 x3 acc := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Chamfer

end
-- ==== Proof.Ideal.Data.lean ====
import proofs.«160890_j77094662964081_2_alg».proof.Proof.Ideal.Body

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

/-- One staging buffer of each output window, through which its contents are stated (the choice does not matter:
    pieces that cover a block read back the same through any whole buffer). -/
abbrev rowView : View sig .tc .vmem S4x1024 .f32 := (Memref.whole cc0_stg4_0 : Memref sig .tc .vmem S4x1024 .f32).view
abbrev colView : View sig .tc .vmem S1x4x512 .f32 := (Memref.whole cc0_stg5_0 : Memref sig .tc .vmem S1x4x512 .f32).view

/-- Each window's current staging buffer at point `t`, as the pipeline passes it to the body, and its wholeness. -/
abbrev ms0 (t : Fin cfg0.N) : Memref sig .tc .vmem S4x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4x512 .f32 := win0_5.stage (cfg0.slots t 5)
abbrev hs5 (t : Fin cfg0.N) : (ms5 t).IsWhole := hstage0_5 ((cfg0.slots t 5).cast nbuf0_5)

/-! ## What one run of the body leaves in the output blocks -/

section OneRun
variable (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (x0 : Vec F S4x3x1024 .f32) (x1 : Vec F S4x3x512 .f32) (x2 : Vec F S4x1024 .f32) (x3 : Vec F S4x512 .f32)

/-- At a point that starts a row of tiles the stores into the row-minimum block tile it, -/
theorem rows_cover_first (h1 : k0_cond1 i = 1#1) (h2 : ¬ k0_cond2 i = 1#1) (y : S4x1024.Idx) :
    ∃ pc ∈ (firstRun (F := F) c i arg2 harg2 arg3 harg3 arg4 harg4 arg5 harg5 arg6 harg6 arg7 harg7 h1 h2 x0 x1 x2 x3).rows, y ∈ pc.1.set :=
  View.cover_of_tiledL (firstRun (F := F) c i arg2 harg2 arg3 harg3 arg4 harg4 arg5 harg5 arg6 harg6 arg7 harg7 h1 h2 x0 x1 x2 x3).rows S4x1024.size (by sl_kernel_rfl) y
/-- and so do the stores into the column-minimum block. -/
theorem cols_cover_first (h1 : k0_cond1 i = 1#1) (h2 : ¬ k0_cond2 i = 1#1) (y : S1x4x512.Idx) :
    ∃ pc ∈ (firstRun (F := F) c i arg2 harg2 arg3 harg3 arg4 harg4 arg5 harg5 arg6 harg6 arg7 harg7 h1 h2 x0 x1 x2 x3).cols, y ∈ pc.1.set :=
  View.cover_of_tiledL (firstRun (F := F) c i arg2 harg2 arg3 harg3 arg4 harg4 arg5 harg5 arg6 harg6 arg7 harg7 h1 h2 x0 x1 x2 x3).cols S1x4x512.size (by sl_kernel_rfl) y
/-- The same at a later tile of the row. -/
theorem rows_cover_later (h1 : ¬ k0_cond1 i = 1#1) (h2 : k0_cond2 i = 1#1) (acc : Vec F S4x1024 .f32) (y : S4x1024.Idx) :
    ∃ pc ∈ (laterRun (F := F) c i arg2 harg2 arg3 harg3 arg4 harg4 arg5 harg5 arg6 harg6 arg7 harg7 h1 h2 x0 x1 x2 x3 acc).rows, y ∈ pc.1.set :=
  View.cover_of_tiledL (laterRun (F := F) c i arg2 harg2 arg3 harg3 arg4 harg4 arg5 harg5 arg6 harg6 arg7 harg7 h1 h2 x0 x1 x2 x3 acc).rows S4x1024.size (by sl_kernel_rfl) y
theorem cols_cover_later (h1 : ¬ k0_cond1 i = 1#1) (h2 : k0_cond2 i = 1#1) (acc : Vec F S4x1024 .f32) (y : S1x4x512.Idx) :
    ∃ pc ∈ (laterRun (F := F) c i arg2 harg2 arg3 harg3 arg4 harg4 arg5 harg5 arg6 harg6 arg7 harg7 h1 h2 x0 x1 x2 x3 acc).cols, y ∈ pc.1.set :=
  View.cover_of_tiledL (laterRun (F := F) c i arg2 harg2 arg3 harg3 arg4 harg4 arg5 harg5 arg6 harg6 arg7 harg7 h1 h2 x0 x1 x2 x3 acc).cols S1x4x512.size (by sl_kernel_rfl) y

/-- The row-minimum block after the body at a point that starts a row of tiles: its pieces read back. -/
def rowsFirst (h1 : k0_cond1 i = 1#1) (h2 : ¬ k0_cond2 i = 1#1) : Vec F S4x1024 .f32 :=
  rowView.read (Elt F) (rowView.writes (Elt F) rowView.junk (firstRun (F := F) c i arg2 harg2 arg3 harg3 arg4 harg4 arg5 harg5 arg6 harg6 arg7 harg7 h1 h2 x0 x1 x2 x3).rows)
/-- The column-minimum block after the body there. -/
def colsFirst (h1 : k0_cond1 i = 1#1) (h2 : ¬ k0_cond2 i = 1#1) : Vec F S1x4x512 .f32 :=
  colView.read (Elt F) (colView.writes (Elt F) colView.junk (firstRun (F := F) c i arg2 harg2 arg3 harg3 arg4 harg4 arg5 harg5 arg6 harg6 arg7 harg7 h1 h2 x0 x1 x2 x3).cols)
/-- The row-minimum block after the body at a later tile, from what it held on entry. -/
def rowsLater (h1 : ¬ k0_cond1 i = 1#1) (h2 : k0_cond2 i = 1#1) (acc : Vec F S4x1024 .f32) : Vec F S4x1024 .f32 :=
  rowView.read (Elt F) (rowView.writes (Elt F) rowView.junk (laterRun (F := F) c i arg2 harg2 arg3 harg3 arg4 harg4 arg5 harg5 arg6 harg6 arg7 harg7 h1 h2 x0 x1 x2 x3 acc).rows)
/-- The column-minimum block after the body there. -/
def colsLater (h1 : ¬ k0_cond1 i = 1#1) (h2 : k0_cond2 i = 1#1) (acc : Vec F S4x1024 .f32) : Vec F S1x4x512 .f32 :=
  colView.read (Elt F) (colView.writes (Elt F) colView.junk (laterRun (F := F) c i arg2 harg2 arg3 harg3 arg4 harg4 arg5 harg5 arg6 harg6 arg7 harg7 h1 h2 x0 x1 x2 x3 acc).cols)

end OneRun

/-! ## What the output blocks hold after each point -/

/-- THE ACCUMULATION along a row of tiles. The row-minimum block after the body at position `n`: at a point that
    starts a row of tiles what the first branch stores; at a later one what the second branch stores over what the
    point before left (the block is not written back in between). -/
def rowsAt (c : Dev nD) : (n : ℕ) → n < cfg0.N → Vec F S4x1024 .f32
  | 0, hn => rowsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (iblk m c 0 ⟨0, hn⟩) (iblk m c 1 ⟨0, hn⟩) (iblk m c 2 ⟨0, hn⟩) (iblk m c 3 ⟨0, hn⟩)
      ((first_iff ⟨0, hn⟩).mpr (Nat.zero_mod _)) (fun h => (later_iff ⟨0, hn⟩).mp h (Nat.zero_mod _))
  | n + 1, hn =>
    if h0 : (n + 1) % 16 = 0 then
      rowsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (iblk m c 0 ⟨n + 1, hn⟩) (iblk m c 1 ⟨n + 1, hn⟩) (iblk m c 2 ⟨n + 1, hn⟩) (iblk m c 3 ⟨n + 1, hn⟩)
        ((first_iff ⟨n + 1, hn⟩).mpr h0) (fun h => (later_iff ⟨n + 1, hn⟩).mp h h0)
    else
      rowsLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (iblk m c 0 ⟨n + 1, hn⟩) (iblk m c 1 ⟨n + 1, hn⟩) (iblk m c 2 ⟨n + 1, hn⟩) (iblk m c 3 ⟨n + 1, hn⟩)
        (fun h => h0 ((first_iff ⟨n + 1, hn⟩).mp h)) ((later_iff ⟨n + 1, hn⟩).mpr h0) (rowsAt c n (Nat.lt_of_succ_lt hn))

/-- The row-minimum block at the point before `t` (at `t` itself when `t` is the first). -/
abbrev rowsBefore (c : Dev nD) (t : Fin cfg0.N) : Vec F S4x1024 .f32 :=
  rowsAt m c (t.val - 1) (Nat.lt_of_le_of_lt (Nat.sub_le _ _) t.isLt)

/-- The column-minimum block after the body at point `t`: fresh at every point. -/
def colsAt (c : Dev nD) (t : Fin cfg0.N) : Vec F S1x4x512 .f32 :=
  if h0 : t.val % 16 = 0 then
    colsFirst c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) ((first_iff t).mpr h0) (fun h => (later_iff t).mp h h0)
  else
    colsLater c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (fun h => h0 ((first_iff t).mp h)) ((later_iff t).mpr h0) (rowsBefore m c t)

theorem rowsAt_first (c : Dev nD) (t : Fin cfg0.N) (h0 : t.val % 16 = 0) :
    rowsAt m c t.val t.isLt = rowsFirst c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) ((first_iff t).mpr h0) (fun h => (later_iff t).mp h h0) := by
  obtain ⟨n, hn⟩ := t
  cases n with
  | zero => exact rfl
  | succ n => exact (dif_pos h0).trans rfl

theorem rowsAt_later (c : Dev nD) (t : Fin cfg0.N) (h0 : ¬ t.val % 16 = 0) :
    rowsAt m c t.val t.isLt = rowsLater c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (fun h => h0 ((first_iff t).mp h)) ((later_iff t).mpr h0) (rowsBefore m c t) := by
  obtain ⟨n, hn⟩ := t
  cases n with
  | zero => exact (by exfalso; (try dsimp only at h0); exact absurd (Nat.zero_mod _) h0)
  | succ n => exact (dif_neg h0).trans rfl

theorem colsAt_first (c : Dev nD) (t : Fin cfg0.N) (h0 : t.val % 16 = 0) :
    colsAt m c t = colsFirst c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) ((first_iff t).mpr h0) (fun h => (later_iff t).mp h h0) :=
  dif_pos h0

theorem colsAt_later (c : Dev nD) (t : Fin cfg0.N) (h0 : ¬ t.val % 16 = 0) :
    colsAt m c t = colsLater c (grid0.coords t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (fun h => h0 ((first_iff t).mp h)) ((later_iff t).mpr h0) (rowsBefore m c t) :=
  dif_neg h0

/-! ## The pipeline's proof data -/

/-- The proof data of the one pipeline on core `c`: the arrays as the region finds them; after the body at point
    `t` each input's buffer at its block, the row-minimum buffer at `rowsAt`, the column-minimum buffer at `colsAt`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsAt m c t.val t.isLt
    | ⟨5, _⟩ => colsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = rowsAt m c t.val t.isLt := by dsimp only [dats]
theorem after5 (c : Dev nD) (t : Fin cfg0.N) : (dats m 0 c).after 5 t = colsAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- One of the two branches is taken at every grid point, so the row-minimum window is stored into at every point. -/
theorem rows_live : ∀ i : grid0.Coords, cfg0.idle 4 i = false := by
  intro i
  show (!(k0_cond1 i == 1#1) && !(k0_cond2 i == 1#1)) = false
  unfold k0_cond1 k0_cond2
  generalize i 1 = j
  revert j
  decide

/-- At a later tile of a row the row-minimum buffer holds what the body left at the point before: the point is not
    the first, and the block is written back only after the last tile of a row. -/
theorem before4_later (c : Dev nD) (t : Fin cfg0.N) (h0 : ¬ t.val % 16 = 0) (d) :
    (dats m 0 c).before 4 t d = rowsBefore m c t := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    rows_live (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point either starts a row of tiles or not; in
    the second case the row-minimum buffer holds what the point before left; so the matching run applies, and what
    its pieces read back is what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 16 = 0
  · rw [rowsAt_first m c t h0, colsAt_first m c t h0]
    unfold rowsFirst colsFirst
    iintro ⟨HΦ, Ho, ⟨%d0, H0⟩, ⟨%d1, H1⟩, ⟨%d2, H2⟩, ⟨%d3, H3⟩, ⟨%d4, H4⟩, ⟨%d5, H5⟩⟩
    iapply ((firstRun c (grid0.coords t) _ _ _ _ _ _ _ _ _ _ _ _ ((first_iff t).mpr h0) (fun h => (later_iff t).mp h h0) (iblk m c 0 t) (iblk m c 1 t) (iblk m c 2 t) (iblk m c 3 t)).run Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (rows_cover_first c _ _ _ _ _ _ _ _ _ _ _ _ _ _ _ _ _ _ _)
    · unfold owns; iexists _; isplitr
      swap; · iexact H5
      ipureintro; exact View.read_writes_of_cover _ _ _ _ _ (cols_cover_first c _ _ _ _ _ _ _ _ _ _ _ _ _ _ _ _ _ _ _)
  · rw [rowsAt_later m c t h0, colsAt_later m c t h0]
    simp only [before4_later m c t h0]
    unfold rowsLater colsLater
    iintro ⟨HΦ, Ho, ⟨%d0, H0⟩, ⟨%d1, H1⟩, ⟨%d2, H2⟩, ⟨%d3, H3⟩, ⟨%d4, H4⟩, ⟨%d5, H5⟩⟩
    iapply ((laterRun c (grid0.coords t) _ _ _ _ _ _ _ _ _ _ _ _ (fun h => h0 ((first_iff t).mp h)) ((later_iff t).mpr h0) (iblk m c 0 t) (iblk m c 1 t) (iblk m c 2 t) (iblk m c 3 t) (rowsBefore m c t)).run Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (rows_cover_later c _ _ _ _ _ _ _ _ _ _ _ _ _ _ _ _ _ _ _ _)
    · unfold owns; iexists _; isplitr
      swap; · iexact H5
      ipureintro; exact View.read_writes_of_cover _ _ _ _ _ (cols_cover_later c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have hl : cfg0.idle (4 : Fin 6) (cfg0.grid.coords t) = false := rows_live _
  rw [hl]
  exact sound_body m c t

/-! ## The run and the frame -/

set_option backward.isDefEq.respectTransparency.types false in
/-- Every weakly fair execution of the program terminates, and every final state has every array of the pipeline at
    what the proof data says and every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Chamfer

end
-- ==== Proof.Ideal.Pieces.lean ====
import proofs.«160890_j77094662964081_2_alg».proof.Proof.Ideal.Data
import Idealize.ShloMosaic.Lib.Pipeline.Value

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the stored pieces read back as

In either branch each output block is overwritten by ONE store of the whole block, so what the block holds after
the body is that store's value: the tile's row minimum (first tile of a row of tiles), the minimum of the carried
block and the tile's row minimum (later tiles), and the tile's column minimum. The values are the body's pure
terms `k0_pay2`, `k0_pay3`, `k0_pay4` of the squared-distance tile `k0_pay5` of the four loaded blocks. -/

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords)
    (arg2 : Memref sig .tc .vmem S4x3x1024 .f32) (harg2 : arg2.IsWhole)
    (arg3 : Memref sig .tc .vmem S4x3x512 .f32) (harg3 : arg3.IsWhole)
    (arg4 : Memref sig .tc .vmem S4x1024 .f32) (harg4 : arg4.IsWhole)
    (arg5 : Memref sig .tc .vmem S4x512 .f32) (harg5 : arg5.IsWhole)
    (arg6 : Memref sig .tc .vmem S4x1024 .f32) (harg6 : arg6.IsWhole)
    (arg7 : Memref sig .tc .vmem S1x4x512 .f32) (harg7 : arg7.IsWhole)
    (x0 : Vec F S4x3x1024 .f32) (x1 : Vec F S4x3x512 .f32) (x2 : Vec F S4x1024 .f32) (x3 : Vec F S4x512 .f32)

/-- First tile of a row of tiles: the row-minimum block holds the tile's row minimum. -/
theorem rowsFirst_eq (h1 : k0_cond1 i = 1#1) (h2 : ¬ k0_cond2 i = 1#1) :
    rowsFirst c i arg2 harg2 arg3 harg3 arg4 harg4 arg5 harg5 arg6 harg6 arg7 harg7 x0 x1 x2 x3 h1 h2 = k0_pay2 (k0_pay5 x0 x1 x2 x3) (k0_pay6 (F := F)) := by
  unfold rowsFirst
  rw [View.read_writes_eq_canon _ _ _ (rows_cover_first c i arg2 harg2 arg3 harg3 arg4 harg4 arg5 harg5 arg6 harg6 arg7 harg7 x0 x1 x2 x3 h1 h2)]
  unfold firstRun
  dsimp only
  sl_unfold_words
  rw [View.canon_unit_zero hz2]
  simp only [View.readAt_eq_ld, harg2.read_unread, harg3.read_unread, harg4.read_unread, harg5.read_unread,
    View.ld_unit_zero (S := S4x3x1024) hz3, View.ld_unit_zero (S := S4x3x512) hz3,
    View.ld_unit_zero (S := S4x1024) hz2, View.ld_unit_zero (S := S4x512) hz2]

/-- First tile of a row of tiles: the column-minimum block holds the tile's column minimum. -/
theorem colsFirst_eq (h1 : k0_cond1 i = 1#1) (h2 : ¬ k0_cond2 i = 1#1) :
    colsFirst c i arg2 harg2 arg3 harg3 arg4 harg4 arg5 harg5 arg6 harg6 arg7 harg7 x0 x1 x2 x3 h1 h2 = k0_pay4 (k0_pay5 x0 x1 x2 x3) (k0_pay6 (F := F)) := by
  unfold colsFirst
  rw [View.read_writes_eq_canon _ _ _ (cols_cover_first c i arg2 harg2 arg3 harg3 arg4 harg4 arg5 harg5 arg6 harg6 arg7 harg7 x0 x1 x2 x3 h1 h2)]
  unfold firstRun
  dsimp only
  sl_unfold_words
  rw [View.canon_unit_zero hz3]
  simp only [View.readAt_eq_ld, harg2.read_unread, harg3.read_unread, harg4.read_unread, harg5.read_unread,
    View.ld_unit_zero (S := S4x3x1024) hz3, View.ld_unit_zero (S := S4x3x512) hz3,
    View.ld_unit_zero (S := S4x1024) hz2, View.ld_unit_zero (S := S4x512) hz2]

/-- A later tile: the row-minimum block holds the minimum of what it held and the tile's row minimum. -/
theorem rowsLater_eq (h1 : ¬ k0_cond1 i = 1#1) (h2 : k0_cond2 i = 1#1) (acc : Vec F S4x1024 .f32) :
    rowsLater c i arg2 harg2 arg3 harg3 arg4 harg4 arg5 harg5 arg6 harg6 arg7 harg7 x0 x1 x2 x3 h1 h2 acc = k0_pay3 (k0_pay5 x0 x1 x2 x3) (k0_pay6 (F := F)) acc := by
  unfold rowsLater
  rw [View.read_writes_eq_canon _ _ _ (rows_cover_later c i arg2 harg2 arg3 harg3 arg4 harg4 arg5 harg5 arg6 harg6 arg7 harg7 x0 x1 x2 x3 h1 h2 acc)]
  unfold laterRun
  dsimp only
  sl_unfold_words
  rw [View.canon_unit_zero hz2]
  simp only [View.readAt_eq_ld, harg2.read_unread, harg3.read_unread, harg4.read_unread, harg5.read_unread, harg6.read_unread,
    View.ld_unit_zero (S := S4x3x1024) hz3, View.ld_unit_zero (S := S4x3x512) hz3,
    View.ld_unit_zero (S := S4x1024) hz2, View.ld_unit_zero (S := S4x512) hz2]

/-- A later tile: the column-minimum block holds the tile's column minimum. -/
theorem colsLater_eq (h1 : ¬ k0_cond1 i = 1#1) (h2 : k0_cond2 i = 1#1) (acc : Vec F S4x1024 .f32) :
    colsLater c i arg2 harg2 arg3 harg3 arg4 harg4 arg5 harg5 arg6 harg6 arg7 harg7 x0 x1 x2 x3 h1 h2 acc = k0_pay4 (k0_pay5 x0 x1 x2 x3) (k0_pay6 (F := F)) := by
  unfold colsLater
  rw [View.read_writes_eq_canon _ _ _ (cols_cover_later c i arg2 harg2 arg3 harg3 arg4 harg4 arg5 harg5 arg6 harg6 arg7 harg7 x0 x1 x2 x3 h1 h2 acc)]
  unfold laterRun
  dsimp only
  sl_unfold_words
  rw [View.canon_unit_zero hz3]
  simp only [View.readAt_eq_ld, harg2.read_unread, harg3.read_unread, harg4.read_unread, harg5.read_unread, harg6.read_unread,
    View.ld_unit_zero (S := S4x3x1024) hz3, View.ld_unit_zero (S := S4x3x512) hz3,
    View.ld_unit_zero (S := S4x1024) hz2, View.ld_unit_zero (S := S4x512) hz2]

end

end Cert.KernelIdeal.Chamfer

end
-- ==== Proof.LibMinFold.lean ====
/-
  Minima over a finite family of extended reals, as a fold of `min` from `+∞`.

  * A float minimum reduction over ONE axis, read at the exact instance, is at each result index the fold of `min`
    from the accumulator's value over that axis's coordinates (the companion of the library's law for a maximum).
  * Such a fold from `⊤` is the greatest lower bound of the family: `c ≤ fold ↔ ∀ i, c ≤ g i`; so a value with
    that property IS the fold, which is how a minimum accumulated in several steps is identified with the minimum
    over the whole family without reordering anything.
  * `x ↦ sqrt (max x 0)` is monotone on the extended reals and fixes `⊤`, so it commutes with the fold: the square
    root of the clamped minimum is the minimum of the clamped square roots.
-/
import Idealize.ShloMosaic.PureOps.Ideal.Laws
import Mathlib.Data.Finset.Fold
import Mathlib.Data.EReal.Basic

noncomputable section

namespace Idealize.ShloMosaic.MinFold

open Idealize.ShloMosaic

variable {φ : FTy}

/-- A float `vector.multi_reduction <minimumf>` over one axis, read at the exact instance: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 pattern of `+∞` is `⊤`. -/
theorem ofBits_inf_f32 : Ideal.ofBits .f32 0x7F800000#32 = ⊤ := by simp [Ideal.ofBits, Ideal.ieee]

variable {ι : Type*}

/-- A fold of `min` from `⊤` is a lower bound of exactly what every member is above. -/
theorem le_fold_min_top (s : Finset ι) (g : ι → EReal) (c : EReal) :
    c ≤ s.fold min ⊤ g ↔ ∀ i ∈ s, c ≤ g i := by
  rw [Finset.le_fold_min]; exact ⟨fun h => h.2, fun h => ⟨le_top, h⟩⟩

/-- A value that is below exactly the lower bounds of the whole family is the fold of `min` over it. -/
theorem eq_fold_min_top_of_le_iff [Fintype ι] (g : ι → EReal) (x : EReal) (h : ∀ c, c ≤ x ↔ ∀ i, c ≤ g i) :
    x = (Finset.univ : Finset ι).fold min ⊤ g := by
  apply le_antisymm
  · rw [le_fold_min_top]; intro i _; exact (h x).mp le_rfl i
  · rw [h]; intro i; exact (le_fold_min_top _ _ _).mp le_rfl i (Finset.mem_univ i)

/-- The exact square root is monotone on the extended reals. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe q =>
      have hrq : r ≤ q := EReal.coe_le_coe_iff.mp hxy
      simp only [Ideal.sqrt_coe]
      by_cases hr : r < 0
      · rw [if_pos hr]; exact bot_le
      · rw [if_neg hr, if_neg (by linarith : ¬ q < 0)]
        exact EReal.coe_le_coe_iff.mpr (Real.sqrt_le_sqrt hrq)

/-- Clamping below at zero and then taking the square root is monotone. -/
theorem sqrtClamp_mono : Monotone (fun x : EReal => Ideal.sqrt (max x 0)) :=
  fun _ _ h => sqrt_mono (max_le_max h le_rfl)

instance : Std.Commutative (min : EReal → EReal → EReal) := ⟨min_comm⟩
instance : Std.Associative (min : EReal → EReal → EReal) := ⟨min_assoc⟩

/-- The square root of the clamped minimum is the minimum of the clamped square roots. -/
theorem sqrtClamp_fold_min (s : Finset ι) (g : ι → EReal) :
    Ideal.sqrt (max (s.fold min ⊤ g) 0) = s.fold min ⊤ (fun i => Ideal.sqrt (max (g i) 0)) := by
  have h := Finset.fold_hom (op := (min : EReal → EReal → EReal)) (op' := (min : EReal → EReal → EReal))
    (m := fun x : EReal => Ideal.sqrt (max x 0)) (b := (⊤ : EReal)) (f := g) (s := s)
    (fun x y => sqrtClamp_mono.map_min)
  have htop : Ideal.sqrt (max (⊤ : EReal) 0) = ⊤ := by rw [max_eq_left le_top]; rfl
  simp only [htop] at h
  exact h.symm

end Idealize.ShloMosaic.MinFold

end
-- ==== Proof.Ideal.Tile.lean ====
import proofs.«160890_j77094662964081_2_alg».proof.Proof.Gen.KernelIdeal.Skeleton
import proofs.«160890_j77094662964081_2_alg».proof.Proof.LibMinFold
import Idealize.ShloMosaic.Lib.ValueIdx
import Idealize.ShloMosaic.Lib.Pipeline.Value
import Idealize.ShloMosaic.Lib.ValueLayout
import Idealize.ShloMosaic.PureOps.Ideal.Laws
noncomputable section
namespace Cert.KernelIdeal.Chamfer
open Idealize.ShloMosaic Idealize.ShloMosaic.ValueIdx Cert.KernelIdeal Cert.KernelIdeal.Gen

/-!
  The arithmetic of one tile of the chamfer distance, read at an index, over the extended reals.

  For a batch `b`, a point `r` of the first set (1024 per tile, coordinates `x0 (b, c, r)`, squared norm `x2 (b, r)`) and a
  point `q` of the second (512 per tile, coordinates `x1 (b, c, q)`, squared norm `x3 (b, q)`), the tile holds
  `max (|s|² + |d|² − 2 ⟨s, d⟩) 0` at `(b, r, q)`. Its minimum along `q` is a fold of `min` from `⊤` over the 512 columns, its
  minimum along `r` a fold of `min` from `⊤` over the 1024 rows, and the running row minimum is updated by `min` with the
  tile's row minimum. The slices, unit-axis reshapes and broadcasts that lay the coordinates and norms out over the tile
  are each read at coordinates first (row-major positions agree), then composed.
-/

/-! ### The three minima -/

/-- the running row minimum is updated by the tile's row minimum -/
theorem accTile_apply (v44 v45 : FVec Ideal S4x1024x512 .f32) (acc : Vec Ideal S4x1024 .f32) (b : Fin 4) (r : Fin 1024) :
    k0_pay3 v44 v45 acc (ix2 b r) = min (acc (ix2 b r)) (k0_pay2 v44 v45 (ix2 b r)) := by
  unfold k0_pay3
  show min (shapeCast S4x1024 acc shapeCasts_S4x1024_S4x1024 (ix2 b r)) _ = _
  rw [shapeCast_self]

/-- the source index of a reduction over the last axis: the row index with the column inserted -/
private theorem lift_row (b : Fin 4) (r : Fin 1024) (q : Fin 512) :
    reduces_S4x1024x512_S4x1024.lift (ix2 b r) q = ix3 b r q :=
  funext fun a => Fin.ext (by match a with | ⟨0, _⟩ => rfl | ⟨1, _⟩ => rfl | ⟨2, _⟩ => rfl)

/-- the source index of a reduction over the middle axis: the column index with the row inserted -/
private theorem lift_col (b : Fin 4) (q : Fin 512) (r : Fin 1024) :
    reduces_S4x1024x512_S4x512.lift (ix2 b q) r = ix3 b r q :=
  funext fun a => Fin.ext (by match a with | ⟨0, _⟩ => rfl | ⟨1, _⟩ => rfl | ⟨2, _⟩ => rfl)

theorem rowTile_apply (v44 v45 : FVec Ideal S4x1024x512 .f32) (b : Fin 4) (r : Fin 1024) :
    k0_pay2 v44 v45 (ix2 b r) = (Finset.univ : Finset (Fin 512)).fold min ⊤ (fun q => k0_pay1 v44 v45 (ix3 b r q)) := by
  unfold k0_pay2
  refine (MinFold.multiReduction_minimumf_single _ _ _ _ _ _).trans ?_
  show (Finset.univ : Finset (Fin 512)).fold min (Ideal.ofBits .f32 0x7F800000#32) _ = _
  rw [MinFold.ofBits_inf_f32]
  congr 1
  funext q
  exact congrArg (k0_pay1 v44 v45) (lift_row b r q)

theorem colTile_apply (v44 v45 : FVec Ideal S4x1024x512 .f32) (b : Fin 4) (q : Fin 512) :
    k0_pay4 v44 v45 (ix3 (0 : Fin 1) b q) = (Finset.univ : Finset (Fin 1024)).fold min ⊤ (fun r => k0_pay1 v44 v45 (ix3 b r q)) := by
  unfold k0_pay4
  refine (shapeCast_ab_1ab_apply _ _ (0 : Fin 1) b q).trans ?_
  refine (MinFold.multiReduction_minimumf_single _ _ _ _ _ _).trans ?_
  show (Finset.univ : Finset (Fin 1024)).fold min (Ideal.ofBits .f32 0x7F800000#32) _ = _
  rw [MinFold.ofBits_inf_f32]
  congr 1
  funext r
  exact congrArg (k0_pay1 v44 v45) (lift_col b q r)

/-! ### Layout operations of the tile at coordinates -/

/-- a trailing unit axis added: `[4, n] → [4, n, 1]` reads `(b, r, 0)` at `(b, r)` -/
private theorem cast_addLast {n : Nat} (x : (⟨2, ![4, n]⟩ : Shape).Idx → EReal)
    (h : (⟨2, ![4, n]⟩ : Shape).ShapeCasts ⟨3, ![4, n, 1]⟩) (b : Fin 4) (r : Fin n) (u : Fin 1) :
    shapeCast ⟨3, ![4, n, 1]⟩ x h (ix3 b r u) = x (ix2 b r) :=
  shapeCast_apply x h _ _ (by
    have hu : u.val = 0 := by omega
    rw [Shape.rowMajor_val_three, Shape.rowMajor_val_two]
    show b.val * n + r.val = (b.val * n + r.val) * 1 + u.val
    rw [hu, Nat.mul_one, Nat.add_zero])

/-- a middle unit axis dropped: `[4, 1, n] → [4, n]` reads `(b, r)` at `(b, 0, r)` -/
private theorem cast_dropMid {n : Nat} (x : (⟨3, ![4, 1, n]⟩ : Shape).Idx → EReal)
    (h : (⟨3, ![4, 1, n]⟩ : Shape).ShapeCasts ⟨2, ![4, n]⟩) (b : Fin 4) (r : Fin n) :
    shapeCast ⟨2, ![4, n]⟩ x h (ix2 b r) = x (ix3 b (0 : Fin 1) r) :=
  shapeCast_apply x h _ _ (by
    rw [Shape.rowMajor_val_three, Shape.rowMajor_val_two]
    show (b.val * 1 + 0) * n + r.val = b.val * n + r.val
    rw [Nat.mul_one, Nat.add_zero])

/-- a middle unit axis added: `[4, n] → [4, 1, n]` reads `(b, 0, q)` at `(b, q)` -/
private theorem cast_addMid {n : Nat} (x : (⟨2, ![4, n]⟩ : Shape).Idx → EReal)
    (h : (⟨2, ![4, n]⟩ : Shape).ShapeCasts ⟨3, ![4, 1, n]⟩) (b : Fin 4) (u : Fin 1) (q : Fin n) :
    shapeCast ⟨3, ![4, 1, n]⟩ x h (ix3 b u q) = x (ix2 b q) :=
  shapeCast_apply x h _ _ (by
    have hu : u.val = 0 := by omega
    rw [Shape.rowMajor_val_three, Shape.rowMajor_val_two]
    show b.val * n + q.val = (b.val * 1 + u.val) * n + q.val
    rw [hu, Nat.mul_one, Nat.add_zero])

/-- a column `[4, 1024, 1]` repeated along the last axis -/
private theorem bcast_col (x : S4x1024x1.Idx → EReal) (h : S4x1024x1.Broadcasts S4x1024x512)
    (b : Fin 4) (r : Fin 1024) (q : Fin 512) :
    broadcastTo S4x1024x512 x h (ix3 b r q) = x (ix3 b r (0 : Fin 1)) :=
  broadcastTo_apply x h _ _ (fun a => by
    match a with
    | ⟨0, _⟩ => rfl
    | ⟨1, _⟩ => rfl
    | ⟨2, _⟩ => rfl)

/-- a row `[4, 1, 512]` repeated along the middle axis -/
private theorem bcast_row (x : S4x1x512.Idx → EReal) (h : S4x1x512.Broadcasts S4x1024x512)
    (b : Fin 4) (r : Fin 1024) (q : Fin 512) :
    broadcastTo S4x1024x512 x h (ix3 b r q) = x (ix3 b (0 : Fin 1) q) :=
  broadcastTo_apply x h _ _ (fun a => by
    match a with
    | ⟨0, _⟩ => rfl
    | ⟨1, _⟩ => rfl
    | ⟨2, _⟩ => rfl)

/-- coordinate `c` of the first point set, laid along the rows of the tile -/
private theorem rowCoord_apply (c : Nat) (k : Fin 3) (hk : k.val = c) (x : S4x3x1024.Idx → EReal)
    (hs : S4x3x1024.Slices ![0, c, 0] S4x1x1024) (b : Fin 4) (r : Fin 1024) (q : Fin 512) :
    broadcastTo S4x1024x512
        (shapeCast S4x1024x1
          (shapeCast S4x1024 (extractStridedSlice S4x1x1024 ![0, c, 0] x hs) shapeCasts_S4x1x1024_S4x1024)
          shapeCasts_S4x1024_S4x1024x1)
        broadcasts_S4x1024x1_S4x1024x512 (ix3 b r q)
      = x (ix3 b k r) := by
  refine (bcast_col _ _ b r q).trans ?_
  refine (cast_addLast _ _ b r 0).trans ?_
  refine (cast_dropMid _ _ b r).trans ?_
  exact slice3_axis1_apply c x hs b (0 : Fin 1) r k (by rw [hk]; rfl)

/-- coordinate `c` of the second point set, laid along the columns of the tile -/
private theorem colCoord_apply (c : Nat) (k : Fin 3) (hk : k.val = c) (x : S4x3x512.Idx → EReal)
    (hs : S4x3x512.Slices ![0, c, 0] S4x1x512) (b : Fin 4) (r : Fin 1024) (q : Fin 512) :
    broadcastTo S4x1024x512
        (shapeCast S4x1x512
          (shapeCast S4x512 (extractStridedSlice S4x1x512 ![0, c, 0] x hs) shapeCasts_S4x1x512_S4x512)
          shapeCasts_S4x512_S4x1x512)
        broadcasts_S4x1x512_S4x1024x512 (ix3 b r q)
      = x (ix3 b k q) := by
  refine (bcast_row _ _ b r q).trans ?_
  refine (cast_addMid _ _ b 0 q).trans ?_
  refine (cast_dropMid _ _ b q).trans ?_
  exact slice3_axis1_apply c x hs b (0 : Fin 1) q k (by rw [hk]; rfl)

/-- the squared norms of the first point set, laid along the rows -/
private theorem rowNorm_apply (x : S4x1024.Idx → EReal) (b : Fin 4) (r : Fin 1024) (q : Fin 512) :
    broadcastTo S4x1024x512 (shapeCast S4x1024x1 x shapeCasts_S4x1024_S4x1024x1)
        broadcasts_S4x1024x1_S4x1024x512 (ix3 b r q) = x (ix2 b r) :=
  (bcast_col _ _ b r q).trans (cast_addLast _ _ b r 0)

/-- the squared norms of the second point set, laid along the columns -/
private theorem colNorm_apply (x : S4x512.Idx → EReal) (b : Fin 4) (r : Fin 1024) (q : Fin 512) :
    broadcastTo S4x1024x512 (shapeCast S4x1x512 x shapeCasts_S4x512_S4x1x512)
        broadcasts_S4x1x512_S4x1024x512 (ix3 b r q) = x (ix2 b q) :=
  (bcast_row _ _ b r q).trans (cast_addMid _ _ b 0 q)

/-! ### The tile -/

/-- the clamped squared-distance tile of the four loaded blocks -/
abbrev distTile (x0 : Vec Ideal S4x3x1024 .f32) (x1 : Vec Ideal S4x3x512 .f32) (x2 : Vec Ideal S4x1024 .f32)
    (x3 : Vec Ideal S4x512 .f32) : FVec Ideal S4x1024x512 .f32 :=
  k0_pay1 (k0_pay5 x0 x1 x2 x3) (k0_pay6 (F := Ideal))

/-- at `(b, r, q)` the tile is `max (|s|² + |d|² − 2 ⟨s, d⟩) 0` for point `r` of the first set and `q` of the second -/
theorem distTile_apply (x0 : Vec Ideal S4x3x1024 .f32) (x1 : Vec Ideal S4x3x512 .f32) (x2 : Vec Ideal S4x1024 .f32)
    (x3 : Vec Ideal S4x512 .f32) (b : Fin 4) (r : Fin 1024) (q : Fin 512) :
    distTile x0 x1 x2 x3 (ix3 b r q)
      = max ((x2 (ix2 b r) + x3 (ix2 b q))
              - Ideal.ofBits .f32 0x40000000#32 * ((x0 (ix3 b 0 r) * x1 (ix3 b 0 q) + x0 (ix3 b 1 r) * x1 (ix3 b 1 q)) + x0 (ix3 b 2 r) * x1 (ix3 b 2 q)))
            (Ideal.ofBits .f32 0x00000000#32) := by
  unfold distTile k0_pay1 k0_pay5 k0_pay6
  simp only [maximumf_apply, subf_apply, addf_apply, mulf_apply, broadcast_apply, shapeCast_self]
  rw [rowNorm_apply, colNorm_apply, rowCoord_apply 0 0 rfl, rowCoord_apply 1 1 rfl, rowCoord_apply 2 2 rfl,
    colCoord_apply 0 0 rfl, colCoord_apply 1 1 rfl, colCoord_apply 2 2 rfl]
  rfl

end Cert.KernelIdeal.Chamfer
end
-- ==== Proof.Ideal.Blocks.lean ====
import proofs.«160890_j77094662964081_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

/-! # The four input blocks at a grid point, as entries of the two point clouds

The grid has 8 × 16 points; point t has coordinates (t / 16, t % 16). With X, Y the two clouds
(batch b < 4, point n < 8192, coordinate k < 3):

* block 0 at t is Xᵀ[b, k, 1024·(t/16) + r] = X[b, 1024·(t/16) + r, k]   (r < 1024);
* block 1 at t is Yᵀ[b, k, 512·(t%16) + q]  = Y[b, 512·(t%16) + q, k]    (q < 512);
* block 2 at t is 0 + ∑ₖ X[b, 1024·(t/16) + r, k]²;
* block 3 at t is 0 + ∑ₖ Y[b, 512·(t%16) + q, k]².

Each is: the array the block is cut from is a transpose (resp. a sum of squares over k) of a cloud;
element y of the block at block index i sits in the array at i·size + y on every axis; the block
indices are (0, 0, t/16), (0, 0, t%16), (0, t/16), (0, t%16), checked over all 128 points. -/

set_option maxRecDepth 16384
noncomputable section
namespace Cert.KernelIdeal.Chamfer
open Idealize.ShloMosaic Idealize.ShloMosaic.TcCoe Idealize.ShloMosaic.ValueIdx Idealize.SL.Sem Cert.KernelIdeal Cert.KernelIdeal.Gen
variable (m : (ℓ : Loc nD τ sig) → Buf (Elt Ideal) ℓ) (c : Dev nD)

/-- the two argument arrays on core c, as functions of an index -/
abbrev argSrc : S4x8192x3.Idx → EReal := m ((c : Thread nD τ).loc main_arg0)
abbrev argDst : S4x8192x3.Idx → EReal := m ((c : Thread nD τ).loc main_arg1)
/-- row n = 1024·(t/16) + r of the source cloud, column mm = 512·(t%16) + q of the destination cloud -/
abbrev rowOf (t : Fin cfg0.N) (r : Fin 1024) : Fin 8192 := ⟨1024 * (t.val / 16) + r.val, by have := t.isLt; have : cfg0.N = 128 := N_0; omega⟩
abbrev colOf (t : Fin cfg0.N) (q : Fin 512) : Fin 8192 := ⟨512 * (t.val % 16) + q.val, by omega⟩

/-! ## The four arrays the blocks are cut from -/

/-- Array 0 is the source cloud with its last two axes swapped. -/
private theorem V_v0 : (V m c main_v0 : S4x3x8192.Idx → EReal) = transpose S4x3x8192 [0, 2, 1] (m ((c : Thread nD τ).loc main_arg0)) transposes_S4x8192x3_S4x3x8192_0_2_1 := by
  show StableHlo.after hostOps0 (fun b => m (c, b)) (Proc.devRef .tc main_v0) = _
  after_results

/-- Array 1 is the destination cloud with its last two axes swapped. -/
private theorem V_v1 : (V m c main_v1 : S4x3x8192.Idx → EReal) = transpose S4x3x8192 [0, 2, 1] (m ((c : Thread nD τ).loc main_arg1)) transposes_S4x8192x3_S4x3x8192_0_2_1 := by
  show StableHlo.after hostOps0 (fun b => m (c, b)) (Proc.devRef .tc main_v1) = _
  after_results

/-- Array 2 is the sum over the coordinate axis of the source cloud's squares, from 0. -/
private theorem V_v3 : (V m c main_v3 : S4x8192.Idx → EReal) = Host.reduceAdd (F := Ideal) (mulf (F := Ideal) (m ((c : Thread nD τ).loc main_arg0)) (m ((c : Thread nD τ).loc main_arg0))) (constant (F := Ideal) S_ .f32 0x00000000#32) reducesTo_S4x8192x3_S4x8192_d2 h_S_ := by
  show StableHlo.after hostOps0 (fun b => m (c, b)) (Proc.devRef .tc main_v3) = _
  after_results

/-- Array 3 is the same sum of the destination cloud's squares. -/
private theorem V_v5 : (V m c main_v5 : S4x8192.Idx → EReal) = Host.reduceAdd (F := Ideal) (mulf (F := Ideal) (m ((c : Thread nD τ).loc main_arg1)) (m ((c : Thread nD τ).loc main_arg1))) (constant (F := Ideal) S_ .f32 0x00000000#32) reducesTo_S4x8192x3_S4x8192_d2 h_S_ := by
  show StableHlo.after hostOps0 (fun b => m (c, b)) (Proc.devRef .tc main_v5) = _
  after_results

/-! ## The block indices -/

/-- The block indices of the four inputs at point t: (0, 0, t/16), (0, 0, t%16), (0, t/16), (0, t%16) —
    a finite check over the 128 points. -/
private theorem idx_facts : ∀ t : Fin cfg0.N,
    win0_0.index t (0 : Fin 3) = 0 ∧ win0_0.index t (1 : Fin 3) = 0 ∧ win0_0.index t (2 : Fin 3) = t.val / 16
    ∧ win0_1.index t (0 : Fin 3) = 0 ∧ win0_1.index t (1 : Fin 3) = 0 ∧ win0_1.index t (2 : Fin 3) = t.val % 16
    ∧ win0_2.index t (0 : Fin 2) = 0 ∧ win0_2.index t (1 : Fin 2) = t.val / 16
    ∧ win0_3.index t (0 : Fin 2) = 0 ∧ win0_3.index t (1 : Fin 2) = t.val % 16 :=
  (by decide +kernel : ∀ t : Fin grid0.N, _)

/-! ## The two coordinate blocks -/

/-- Block (0, 0, t/16) of the transposed source cloud: its entry (b, k, r) is the cloud's entry
    (b, 1024·(t/16) + r, k). -/
theorem srcBlock_apply (t : Fin cfg0.N) (b : Fin 4) (k : Fin 3) (r : Fin 1024) :
    (iblk m c 0 t : S4x3x1024.Idx → EReal) (ix3 b k r) = argSrc m c (ix3 b (rowOf t r) k) := by
  obtain ⟨e0, e1, e2, -⟩ := idx_facts t
  show V m c main_v0 (((cfg0.win 0).blk t).view.emb (ix3 b k r)) = _
  have hi : ((cfg0.win 0).blk t).view.emb (ix3 b k r) = (ix3 b k (rowOf t r) : S4x3x8192.Idx) := by
    funext a; apply Fin.ext
    match a with
    | ⟨0, _⟩ => show win0_0.index t (0 : Fin 3) * 4 + 1 * b.val = b.val; omega
    | ⟨1, _⟩ => show win0_0.index t (1 : Fin 3) * 3 + 1 * k.val = k.val; omega
    | ⟨2, _⟩ => show win0_0.index t (2 : Fin 3) * 1024 + 1 * r.val = 1024 * (t.val / 16) + r.val; omega
  refine (congrArg (V m c main_v0) hi).trans ?_
  rw [V_v0]
  exact transpose_ix3_021_apply _ _ b k (rowOf t r)

/-- Block (0, 0, t%16) of the transposed destination cloud: its entry (b, k, q) is the cloud's entry
    (b, 512·(t%16) + q, k). -/
theorem dstBlock_apply (t : Fin cfg0.N) (b : Fin 4) (k : Fin 3) (q : Fin 512) :
    (iblk m c 1 t : S4x3x512.Idx → EReal) (ix3 b k q) = argDst m c (ix3 b (colOf t q) k) := by
  obtain ⟨-, -, -, e0, e1, e2, -⟩ := idx_facts t
  show V m c main_v1 (((cfg0.win 1).blk t).view.emb (ix3 b k q)) = _
  have hi : ((cfg0.win 1).blk t).view.emb (ix3 b k q) = (ix3 b k (colOf t q) : S4x3x8192.Idx) := by
    funext a; apply Fin.ext
    match a with
    | ⟨0, _⟩ => show win0_1.index t (0 : Fin 3) * 4 + 1 * b.val = b.val; omega
    | ⟨1, _⟩ => show win0_1.index t (1 : Fin 3) * 3 + 1 * k.val = k.val; omega
    | ⟨2, _⟩ => show win0_1.index t (2 : Fin 3) * 512 + 1 * q.val = 512 * (t.val % 16) + q.val; omega
  refine (congrArg (V m c main_v1) hi).trans ?_
  rw [V_v1]
  exact transpose_ix3_021_apply _ _ b k (colOf t q)

/-! ## The two squared-norm blocks -/

/-- The sum over the coordinate axis of x², from 0, read at (b, n): 0 plus the three squares
    x(b, n, k)², k < 3. -/
private theorem sumSq_apply (x : S4x8192x3.Idx → EReal) (b : Fin 4) (n : Fin 8192) :
    Host.reduceAdd (F := Ideal) (mulf (F := Ideal) x x) (constant (F := Ideal) S_ .f32 0x00000000#32) reducesTo_S4x8192x3_S4x8192_d2 h_S_ (ix2 b n)
      = Ideal.ofBits .f32 0x00000000#32 + ∑ k : Fin 3, x (ix3 b n k) * x (ix3 b n k) := by
  generalize hy : mulf (F := Ideal) x x = y0
  simp only [Host.reduceAdd, Ideal.hostReduceAdd_def]
  rw [Ideal.hostReduceAdd_single reducesTo_S4x8192x3_S4x8192_d2 (by decide)]
  refine congrArg₂ (· + ·) rfl (Finset.sum_congr rfl fun k _ => ?_)
  subst hy
  have hk : (Shape.Reduces.lift (s := S4x8192x3) (t := S4x8192) (a := 2) (by decide) (ix2 b n) k) = (ix3 b n k : S4x8192x3.Idx) :=
    funext fun a => Fin.ext (by match a with | ⟨0, _⟩ => rfl | ⟨1, _⟩ => rfl | ⟨2, _⟩ => rfl)
  rw [hk]
  rfl

/-- Block (0, t/16) of the source cloud's squared norms: its entry (b, r) is 0 plus the three squares of
    the cloud's row (b, 1024·(t/16) + r). -/
theorem srcNormBlock_apply (t : Fin cfg0.N) (b : Fin 4) (r : Fin 1024) :
    (iblk m c 2 t : S4x1024.Idx → EReal) (ix2 b r) = Ideal.ofBits .f32 0x00000000#32 + ∑ k : Fin 3, argSrc m c (ix3 b (rowOf t r) k) * argSrc m c (ix3 b (rowOf t r) k) := by
  obtain ⟨-, -, -, -, -, -, e0, e1, -⟩ := idx_facts t
  show V m c main_v3 (((cfg0.win 2).blk t).view.emb (ix2 b r)) = _
  have hi : ((cfg0.win 2).blk t).view.emb (ix2 b r) = (ix2 b (rowOf t r) : S4x8192.Idx) := by
    funext a; apply Fin.ext
    match a with
    | ⟨0, _⟩ => show win0_2.index t (0 : Fin 2) * 4 + 1 * b.val = b.val; omega
    | ⟨1, _⟩ => show win0_2.index t (1 : Fin 2) * 1024 + 1 * r.val = 1024 * (t.val / 16) + r.val; omega
  refine (congrArg (V m c main_v3) hi).trans ?_
  rw [V_v3]
  exact sumSq_apply _ b (rowOf t r)

/-- Block (0, t%16) of the destination cloud's squared norms: its entry (b, q) is 0 plus the three squares
    of the cloud's row (b, 512·(t%16) + q). -/
theorem dstNormBlock_apply (t : Fin cfg0.N) (b : Fin 4) (q : Fin 512) :
    (iblk m c 3 t : S4x512.Idx → EReal) (ix2 b q) = Ideal.ofBits .f32 0x00000000#32 + ∑ k : Fin 3, argDst m c (ix3 b (colOf t q) k) * argDst m c (ix3 b (colOf t q) k) := by
  obtain ⟨-, -, -, -, -, -, -, -, e0, e1⟩ := idx_facts t
  show V m c main_v5 (((cfg0.win 3).blk t).view.emb (ix2 b q)) = _
  have hi : ((cfg0.win 3).blk t).view.emb (ix2 b q) = (ix2 b (colOf t q) : S4x8192.Idx) := by
    funext a; apply Fin.ext
    match a with
    | ⟨0, _⟩ => show win0_3.index t (0 : Fin 2) * 4 + 1 * b.val = b.val; omega
    | ⟨1, _⟩ => show win0_3.index t (1 : Fin 2) * 512 + 1 * q.val = 512 * (t.val % 16) + q.val; omega
  refine (congrArg (V m c main_v5) hi).trans ?_
  rw [V_v5]
  exact sumSq_apply _ b (colOf t q)

end Cert.KernelIdeal.Chamfer
end
-- ==== Proof.Ideal.RefDist.lean ====
import proofs.«160890_j77094662964081_2_alg».proof.Proof.Gen.ReferenceIdeal.Read
import proofs.«160890_j77094662964081_2_alg».proof.Proof.LibMinFold
import Idealize.ShloMosaic.Lib.ValueIdx
import Idealize.ShloMosaic.PureOps.Ideal.Laws

noncomputable section

namespace Cert.ReferenceIdeal.Chamfer

open Idealize.ShloMosaic Idealize.ShloMosaic.ValueIdx Cert.ReferenceIdeal Cert.ReferenceIdeal.Gen Cert.ReferenceIdeal.Read

/-! ## The reference's clamped squared distance, entry by entry

For two clouds `X0`, `X1` of 8192 points in each of 4 batches, the reference forms
`D[b, n, k] = max ((|X0[b,n]|² + |X1[b,k]|²) − 2 · ⟨X0[b,n], X1[b,k]⟩) 0` where each squared norm is `0 + Σ_j x_j²`
and the inner product is the sum over the three coordinates. Its two results are `min_k D` and `min_n D`. -/

/-- The clamped squared distance between point `n` of the first cloud and point `k` of the second, in batch `b`,
    with the inner product's three terms written out. -/
theorem dist_apply (X0 X1 : S4x8192x3.Idx → EReal) (b : Fin 4) (n k : Fin 8192) :
    val_main_v14 (F := Ideal) X0 X1 (ix3 b n k)
      = max (((Ideal.ofBits .f32 0x00000000#32 + ∑ j : Fin 3, X0 (ix3 b n j) * X0 (ix3 b n j))
              + (Ideal.ofBits .f32 0x00000000#32 + ∑ j : Fin 3, X1 (ix3 b k j) * X1 (ix3 b k j)))
             - Ideal.ofBits .f32 0x40000000#32
                * ((X0 (ix3 b n 0) * X1 (ix3 b k 0) + X0 (ix3 b n 1) * X1 (ix3 b k 1)) + X0 (ix3 b n 2) * X1 (ix3 b k 2)))
            (Ideal.ofBits .f32 0x00000000#32) := by
  have iS : ∀ j : Fin 3, idx_main_v2 (idx_main_v3 (idx_main_v7 (ix3 b n k))) j = ix3 b n j := fun j =>
    funext fun a => Fin.ext (by match a with | ⟨0, _⟩ => rfl | ⟨1, _⟩ => rfl | ⟨2, _⟩ => rfl)
  have iD : ∀ j : Fin 3, idx_main_v5 (idx_main_v6 (idx_main_v8 (ix3 b n k))) j = ix3 b k j := fun j =>
    funext fun a => Fin.ext (by match a with | ⟨0, _⟩ => rfl | ⟨1, _⟩ => rfl | ⟨2, _⟩ => rfl)
  have iL : ∀ j : Fin 3, lidx_main_v0 (ix3 b n k) j = ix3 b n j := fun j =>
    funext fun a => Fin.ext (by match a with | ⟨0, _⟩ => rfl | ⟨1, _⟩ => rfl | ⟨2, _⟩ => rfl)
  have iR : ∀ j : Fin 3, ridx_main_v0 (ix3 b n k) j = ix3 b k j := fun j =>
    funext fun a => Fin.ext (by match a with | ⟨0, _⟩ => rfl | ⟨1, _⟩ => rfl | ⟨2, _⟩ => rfl)
  rw [val_main_v14_apply, val_main_v12_apply, val_main_v9_apply, val_main_v7_apply, val_main_v3_apply, val_main_v2_apply,
    val_main_v8_apply, val_main_v6_apply, val_main_v5_apply, val_main_v11_apply, val_main_v10_apply, val_main_v0_apply,
    val_main_v13_apply]
  simp only [val_main_v1_apply, val_main_v4_apply, val_main_cst_apply, val_main_cst_0_apply, val_main_cst_1_apply,
    val_main_cst_2_apply, iS, iD, iL, iR, Fin.sum_univ_three]
  rfl

/-- The reference's first result, the minimum over the second cloud: at `(b, n)` the fold of `min` from `⊤` over `k`. -/
theorem rowMin_apply (X0 X1 : S4x8192x3.Idx → EReal) (b : Fin 4) (n : Fin 8192) :
    val_main_v15 (F := Ideal) X0 X1 (ix2 b n)
      = (Finset.univ : Finset (Fin 8192)).fold min ⊤ (fun k => val_main_v14 (F := Ideal) X0 X1 (ix3 b n k)) := by
  unfold val_main_v15
  rw [Host.reduce_eq_fold_single (FloatOps.minimumf (F := Ideal) (φ := .f32)) (val_main_v14 (F := Ideal) X0 X1) (val_main_cst_3 (F := Ideal))
    reducesTo_S4x8192x8192_S4x8192_d2 (by decide) h_S_ (ix2 b n)]
  rw [val_main_cst_3_apply]
  show Finset.fold min (Ideal.ofBits .f32 0x7F800000#32) _ _ = _
  rw [MinFold.ofBits_inf_f32]
  refine congrArg (Finset.fold min ⊤ · Finset.univ) (funext fun k => ?_)
  exact congrArg (val_main_v14 (F := Ideal) X0 X1) (funext fun a => Fin.ext (by match a with | ⟨0, _⟩ => rfl | ⟨1, _⟩ => rfl | ⟨2, _⟩ => rfl))

/-- The reference's second result, the minimum over the first cloud: at `(b, k)` the fold of `min` from `⊤` over `n`. -/
theorem colMin_apply (X0 X1 : S4x8192x3.Idx → EReal) (b : Fin 4) (k : Fin 8192) :
    val_main_v16 (F := Ideal) X0 X1 (ix2 b k)
      = (Finset.univ : Finset (Fin 8192)).fold min ⊤ (fun n => val_main_v14 (F := Ideal) X0 X1 (ix3 b n k)) := by
  unfold val_main_v16
  rw [Host.reduce_eq_fold_single (FloatOps.minimumf (F := Ideal) (φ := .f32)) (val_main_v14 (F := Ideal) X0 X1) (val_main_cst_4 (F := Ideal))
    reducesTo_S4x8192x8192_S4x8192_d1 (by decide) h_S_ (ix2 b k)]
  rw [val_main_cst_4_apply]
  show Finset.fold min (Ideal.ofBits .f32 0x7F800000#32) _ _ = _
  rw [MinFold.ofBits_inf_f32]
  refine congrArg (Finset.fold min ⊤ · Finset.univ) (funext fun n => ?_)
  exact congrArg (val_main_v14 (F := Ideal) X0 X1) (funext fun a => Fin.ext (by match a with | ⟨0, _⟩ => rfl | ⟨1, _⟩ => rfl | ⟨2, _⟩ => rfl))

end Cert.ReferenceIdeal.Chamfer

end
-- ==== Proof.Ideal.TileEntry.lean ====
import proofs.«160890_j77094662964081_2_alg».proof.Proof.Ideal.Tile
import proofs.«160890_j77094662964081_2_alg».proof.Proof.Ideal.Blocks
import proofs.«160890_j77094662964081_2_alg».proof.Proof.Ideal.RefDist

set_option maxRecDepth 16384

noncomputable section

namespace Cert.KernelIdeal.Chamfer

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (c : Dev nD)

/-! ## A tile's entries are entries of the reference's clamped squared distance

At grid point `t` the body's tile pairs the points `1024·(t/16) + r` of the first cloud with the points
`512·(t%16) + q` of the second; read through the blocks the body loads, its entry `(b, r, q)` is the reference's
`D[b, 1024·(t/16) + r, 512·(t%16) + q]`: the same sums of three products, the same constants, in the same order. -/

/-- The reference's clamped squared distance of the two argument arrays on core `c`. -/
abbrev dist (b : Fin 4) (n k : Fin 8192) : EReal :=
  Cert.ReferenceIdeal.Read.val_main_v14 (F := Ideal) (argSrc m c) (argDst m c) (ix3 b n k)

theorem tile_entry (t : Fin cfg0.N) (b : Fin 4) (r : Fin 1024) (q : Fin 512) :
    distTile (iblk m c 0 t) (iblk m c 1 t) (iblk m c 2 t) (iblk m c 3 t) (ix3 b r q)
      = dist m c b (rowOf t r) (colOf t q) := by
  rw [distTile_apply]
  show _ = Cert.ReferenceIdeal.Read.val_main_v14 (F := Ideal) (argSrc m c) (argDst m c) (ix3 b (rowOf t r) (colOf t q))
  rw [Cert.ReferenceIdeal.Chamfer.dist_apply]
  rw [srcBlock_apply m c t b 0 r, srcBlock_apply m c t b 1 r, srcBlock_apply m c t b 2 r,
    dstBlock_apply m c t b 0 q, dstBlock_apply m c t b 1 q, dstBlock_apply m c t b 2 q,
    srcNormBlock_apply m c t b r, dstNormBlock_apply m c t b q]

end Cert.KernelIdeal.Chamfer

end
-- ==== Proof.Ideal.RowMin.lean ====
import proofs.«160890_j77094662964081_2_alg».proof.Proof.Ideal.Pieces
import proofs.«160890_j77094662964081_2_alg».proof.Proof.Ideal.TileEntry

set_option maxRecDepth 16384

noncomputable section

namespace Cert.KernelIdeal.Chamfer

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (c : Dev nD)

/-! ## The row minimum

Along a row of sixteen tiles the body keeps, for each of the 1024 rows of the tile, the minimum so far. We carry
it by its universal property: after the tile `j = t % 16`, a bound `e` is below the kept value at `(b, r)` exactly when
it is below `D[b, n, k]` for every column `k < 512·(j + 1)`, where `n = 1024·(t/16) + r`. After the last tile the
columns are all 8192, so the kept value is the minimum of the whole row — the reference's first result — and that
is the block written back. -/

/-- One tile's row minimum bounds exactly the tile's 512 columns. -/
theorem tile_le_iff (t : Fin cfg0.N) (b : Fin 4) (r : Fin 1024) (e : EReal) :
    e ≤ k0_pay2 (k0_pay5 (iblk m c 0 t) (iblk m c 1 t) (iblk m c 2 t) (iblk m c 3 t)) (k0_pay6 (F := Ideal)) (ix2 b r)
      ↔ ∀ k : Fin 8192, 512 * (t.val % 16) ≤ k.val → k.val < 512 * (t.val % 16 + 1) → e ≤ dist m c b (rowOf t r) k := by
  rw [rowTile_apply, MinFold.le_fold_min_top]
  constructor
  · intro H k hk1 hk2
    have hq := H ⟨k.val - 512 * (t.val % 16), by omega⟩ (Finset.mem_univ _)
    have he : k0_pay1 (k0_pay5 (iblk m c 0 t) (iblk m c 1 t) (iblk m c 2 t) (iblk m c 3 t)) (k0_pay6 (F := Ideal)) (ix3 b r ⟨k.val - 512 * (t.val % 16), by omega⟩)
        = dist m c b (rowOf t r) (colOf t ⟨k.val - 512 * (t.val % 16), by omega⟩) := tile_entry m c t b r _
    have hk : colOf t ⟨k.val - 512 * (t.val % 16), by omega⟩ = k := Fin.ext (by show 512 * (t.val % 16) + (k.val - 512 * (t.val % 16)) = k.val; omega)
    rw [he, hk] at hq
    exact hq
  · intro H q _
    have he : k0_pay1 (k0_pay5 (iblk m c 0 t) (iblk m c 1 t) (iblk m c 2 t) (iblk m c 3 t)) (k0_pay6 (F := Ideal)) (ix3 b r q)
        = dist m c b (rowOf t r) (colOf t q) := tile_entry m c t b r q
    rw [he]
    exact H (colOf t q) (by show 512 * (t.val % 16) ≤ 512 * (t.val % 16) + q.val; omega)
      (by show 512 * (t.val % 16) + q.val < 512 * (t.val % 16 + 1); have := q.isLt; omega)

/-- THE INVARIANT of the accumulation: after point `n` the kept row minimum bounds exactly the columns seen so far in
    the row of tiles. -/
theorem rowsAt_le_iff : ∀ (n : ℕ) (h : n < cfg0.N) (b : Fin 4) (r : Fin 1024) (e : EReal),
    e ≤ rowsAt m c n h (ix2 b r) ↔ ∀ k : Fin 8192, k.val < 512 * (n % 16 + 1) → e ≤ dist m c b (rowOf ⟨n, h⟩ r) k := by
  intro n
  induction n with
  | zero =>
    intro h b r e
    rw [rowsAt_first m c ⟨0, h⟩ rfl, rowsFirst_eq, tile_le_iff]
    constructor
    · intro H k hk; exact H k (by show 512 * (0 % 16) ≤ k.val; omega) hk
    · intro H k _ hk; exact H k hk
  | succ n ih =>
    intro h b r e
    by_cases h0 : (n + 1) % 16 = 0
    · rw [rowsAt_first m c ⟨n + 1, h⟩ h0, rowsFirst_eq, tile_le_iff]
      constructor
      · intro H k hk; exact H k (by show 512 * ((n + 1) % 16) ≤ k.val; omega) hk
      · intro H k _ hk; exact H k hk
    · rw [rowsAt_later m c ⟨n + 1, h⟩ h0, rowsLater_eq, accTile_apply, le_min_iff, tile_le_iff]
      have hprev : rowsBefore m c ⟨n + 1, h⟩ = rowsAt m c n (Nat.lt_of_succ_lt h) := rfl
      rw [hprev, ih (Nat.lt_of_succ_lt h) b r e]
      have hr : rowOf ⟨n, Nat.lt_of_succ_lt h⟩ r = rowOf ⟨n + 1, h⟩ r :=
        Fin.ext (by show 1024 * (n / 16) + r.val = 1024 * ((n + 1) / 16) + r.val; omega)
      have hm : (n + 1) % 16 = n % 16 + 1 := by omega
      rw [hr]
      show ((∀ k : Fin 8192, k.val < 512 * (n % 16 + 1) → e ≤ dist m c b (rowOf ⟨n + 1, h⟩ r) k)
          ∧ ∀ k : Fin 8192, 512 * ((n + 1) % 16) ≤ k.val → k.val < 512 * ((n + 1) % 16 + 1) → e ≤ dist m c b (rowOf ⟨n + 1, h⟩ r) k) ↔ _
      rw [hm]
      constructor
      · rintro ⟨H1, H2⟩ k hk
        by_cases hk' : k.val < 512 * (n % 16 + 1)
        · exact H1 k hk'
        · exact H2 k (by omega) hk
      · intro H
        exact ⟨fun k hk => H k (by omega), fun k _ hk => H k hk⟩

/-- The reference's first result on the two argument arrays, as contents of the kernel's first result array. -/
abbrev rowMinArr : Buf (Elt Ideal) ((c : Thread nD τ).loc main_v6_0) :=
  Cert.ReferenceIdeal.Read.val_main_v15 (F := Ideal) (argSrc m c) (argDst m c)

/-- After the last tile of a row of tiles the kept value is the minimum of the whole row. -/
theorem rowsAt_last (t : Fin cfg0.N) (hf : t.val % 16 = 15) (b : Fin 4) (r : Fin 1024) :
    rowsAt m c t.val t.isLt (ix2 b r) = rowMinArr m c (ix2 b (rowOf t r)) := by
  show _ = Cert.ReferenceIdeal.Read.val_main_v15 (F := Ideal) (argSrc m c) (argDst m c) (ix2 b (rowOf t r))
  rw [Cert.ReferenceIdeal.Chamfer.rowMin_apply]
  refine MinFold.eq_fold_min_top_of_le_iff _ _ fun e => ?_
  rw [rowsAt_le_iff m c t.val t.isLt b r e]
  constructor
  · intro H k; exact H k (by have := k.isLt; omega)
  · intro H k _; exact H k

/-- Where the row-minimum window's block sits in its array, decided once over the grid. -/
theorem rows_index : ∀ t : Fin cfg0.N, win0_4.index t (0 : Fin 2) = 0 ∧ win0_4.index t (1 : Fin 2) = t.val / 16 :=
  (by decide +kernel : ∀ t : Fin grid0.N, win0_4.index t (0 : Fin 2) = 0 ∧ win0_4.index t (1 : Fin 2) = t.val / 16)

/-- WHAT A WRITE-BACK WRITES: the block of the reference's first result. -/
theorem rows_flushed (t : Fin cfg0.N) (hf : (cfg0.win 4).flush t = true) :
    (dats m 0 c).flushed 4 t = ((cfg0.win 4).blk t).view.read (Elt Ideal) (rowMinArr m c) := by
  have h15 : t.val % 16 = 15 := (flush0_4 t).mp hf
  obtain ⟨e0, e1⟩ := rows_index t
  show (cfg0.win 4).cut (grid0.coords t) ((dats m 0 c).after 4 t) = _
  rw [after4]
  have hR : ∀ z : S4x1024.Idx, rowsAt m c t.val t.isLt z = rowMinArr m c (ix2 (z 0) (rowOf t (z 1))) := fun z => by
    exact (congrArg (rowsAt m c t.val t.isLt) (eq_ix2 z)).trans (rowsAt_last m c t h15 (z 0) (z 1))
  generalize rowsAt m c t.val t.isLt = R at hR ⊢
  generalize rowMinArr m c = G at hR ⊢
  funext y
  rw [View.read_apply]
  refine ((hR ((cfg0.win 4).xinj (grid0.coords t) y)).trans (congrArg G ?_)).trans (cast_eq _ _).symm
  funext a; apply Fin.ext
  match a with
  | ⟨0, _⟩ => show (y 0).val = win0_4.index t (0 : Fin 2) * 4 + 1 * (y 0).val; omega
  | ⟨1, _⟩ => show 1024 * (t.val / 16) + (y 1).val = win0_4.index t (1 : Fin 2) * 1024 + 1 * (y 1).val; omega

/-- THE FIRST RESULT ARRAY after the region: the reference's first result. -/
theorem rows_final : (dats m 0 c).arrAt 4 cfg0.N = rowMinArr m c :=
  (dats m 0 c).arrAt_eq_of_cover 4 (rowMinArr m c) (rows_flushed m c) fun (i : S4x8192.Idx) => by
    have hi0 : (i 0).val < 4 := (i 0).isLt
    have hi1 : (i 1).val < 8192 := (i 1).isLt
    have hN : cfg0.N = 128 := N_0
    have hp : 16 * ((i 1).val / 1024) + 15 < cfg0.N := by omega
    refine ⟨⟨16 * ((i 1).val / 1024) + 15, hp⟩, (flush0_4 _).mpr (by show (16 * ((i 1).val / 1024) + 15) % 16 = 15; omega), ?_⟩
    obtain ⟨e0, e1⟩ := rows_index ⟨16 * ((i 1).val / 1024) + 15, hp⟩
    show i ∈ ((View.whole main_v6_0).slice (win0_4.rect ⟨16 * ((i 1).val / 1024) + 15, hp⟩)).set
    rw [View.set_slice_whole, Rect.mem_set_unit]
    intro a
    match a with
    | ⟨0, _⟩ =>
      show win0_4.index _ (0 : Fin 2) * 4 ≤ (i 0).val ∧ (i 0).val < win0_4.index _ (0 : Fin 2) * 4 + 4
      rw [e0]; omega
    | ⟨1, _⟩ =>
      show win0_4.index _ (1 : Fin 2) * 1024 ≤ (i 1).val ∧ (i 1).val < win0_4.index _ (1 : Fin 2) * 1024 + 1024
      rw [e1]; show (16 * ((i 1).val / 1024) + 15) / 16 * 1024 ≤ (i 1).val ∧ (i 1).val < (16 * ((i 1).val / 1024) + 15) / 16 * 1024 + 1024
      omega

end Cert.KernelIdeal.Chamfer

end
-- ==== Proof.Ideal.ColMin.lean ====
import proofs.«160890_j77094662964081_2_alg».proof.Proof.Ideal.Pieces
import proofs.«160890_j77094662964081_2_alg».proof.Proof.Ideal.TileEntry
import Idealize.ShloMosaic.PureOps.Reduce

set_option maxRecDepth 16384

noncomputable section

namespace Cert.KernelIdeal.Chamfer

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (c : Dev nD)

/-! ## The column minimum

Every grid point writes a fresh block of the partial array `[8, 4, 8192]`: slab `t/16`, columns `512·(t%16) …`, holding
for each column the minimum of `D` over the 1024 rows of the tile. The host then takes the minimum over the eight
slabs. A bound is below that exactly when it is below `D[b, 1024·i + r, k]` for all `i < 8`, `r < 1024`, that is for
all 8192 rows `n` — the universal property of the reference's second result. -/

/-- In either branch the column-minimum block holds the tile's column minimum. -/
theorem colsAt_eq (t : Fin cfg0.N) :
    colsAt m c t = k0_pay4 (k0_pay5 (iblk m c 0 t) (iblk m c 1 t) (iblk m c 2 t) (iblk m c 3 t)) (k0_pay6 (F := Ideal)) := by
  by_cases h0 : t.val % 16 = 0
  · rw [colsAt_first m c t h0, colsFirst_eq]
  · rw [colsAt_later m c t h0, colsLater_eq]

/-- Row `1024·i + r` of the first cloud. -/
abbrev rowIn (i : Fin 8) (r : Fin 1024) : Fin 8192 := ⟨1024 * i.val + r.val, by have := i.isLt; have := r.isLt; omega⟩

/-- The partial column minima: slab `i` holds, for batch `b` and column `k`, the minimum of `D` over the rows of slab `i`. -/
abbrev colPart (i : Fin 8) (b : Fin 4) (k : Fin 8192) : EReal :=
  (Finset.univ : Finset (Fin 1024)).fold min ⊤ (fun r => dist m c b (rowIn i r) k)

/-- The same as contents of the kernel's second result array. -/
abbrev colPartArr : Buf (Elt Ideal) ((c : Thread nD τ).loc main_v6_1) :=
  fun j : S8x4x8192.Idx => colPart m c (j 0) (j 1) (j 2)

/-- Where the column-minimum window's block sits in its array, decided once over the grid. -/
theorem cols_index : ∀ t : Fin cfg0.N, win0_5.index t (0 : Fin 3) = t.val / 16 ∧ win0_5.index t (1 : Fin 3) = 0
    ∧ win0_5.index t (2 : Fin 3) = t.val % 16 :=
  (by decide +kernel : ∀ t : Fin grid0.N, win0_5.index t (0 : Fin 3) = t.val / 16 ∧ win0_5.index t (1 : Fin 3) = 0
    ∧ win0_5.index t (2 : Fin 3) = t.val % 16)

/-- WHAT POINT `t` WRITES BACK: its block of the partial column minima. -/
theorem cols_flushed (t : Fin cfg0.N) :
    (dats m 0 c).flushed 5 t = ((cfg0.win 5).blk t).view.read (Elt Ideal) (colPartArr m c) := by
  obtain ⟨e0, e1, e2⟩ := cols_index t
  have hN : cfg0.N = 128 := N_0
  have ht : t.val < 128 := hN ▸ t.isLt
  show (cfg0.win 5).cut (grid0.coords t) ((dats m 0 c).after 5 t) = _
  rw [after5, colsAt_eq]
  refine funext fun (y : S1x4x512.Idx) => ?_
  obtain ⟨z, b, q, rfl⟩ : ∃ (z : Fin 1) (b : Fin 4) (q : Fin 512), y = ix3 z b q := ⟨y 0, y 1, y 2, eq_ix3 y⟩
  obtain rfl : z = 0 := Subsingleton.elim _ _
  show k0_pay4 (k0_pay5 (iblk m c 0 t) (iblk m c 1 t) (iblk m c 2 t) (iblk m c 3 t)) (k0_pay6 (F := Ideal)) (ix3 (0 : Fin 1) b q)
    = colPartArr m c (((cfg0.win 5).blk t).view.emb (ix3 (0 : Fin 1) b q))
  have he : ((cfg0.win 5).blk t).view.emb (ix3 (0 : Fin 1) b q) = (ix3 (⟨t.val / 16, by omega⟩ : Fin 8) b (colOf t q) : S8x4x8192.Idx) := by
    funext a; apply Fin.ext
    match a with
    | ⟨0, _⟩ => show win0_5.index t (0 : Fin 3) * 1 + 1 * 0 = t.val / 16; omega
    | ⟨1, _⟩ => show win0_5.index t (1 : Fin 3) * 4 + 1 * b.val = b.val; omega
    | ⟨2, _⟩ => show win0_5.index t (2 : Fin 3) * 512 + 1 * q.val = 512 * (t.val % 16) + q.val; omega
  rw [colTile_apply]
  refine Eq.trans ?_ (congrArg (colPartArr m c) he).symm
  show Finset.fold min ⊤ _ Finset.univ = Finset.fold min ⊤ (fun r => dist m c b (rowIn ⟨t.val / 16, by omega⟩ r) (colOf t q)) Finset.univ
  refine congrArg (Finset.fold min ⊤ · Finset.univ) (funext fun r => ?_)
  exact tile_entry m c t b r q

/-- THE SECOND RESULT ARRAY after the region: the partial column minima. -/
theorem cols_final : (dats m 0 c).arrAt 5 cfg0.N = colPartArr m c :=
  (dats m 0 c).arrAt_eq_of_cover 5 (colPartArr m c) (fun t _ => cols_flushed m c t) fun (i : S8x4x8192.Idx) => by
    have hi0 : (i 0).val < 8 := (i 0).isLt
    have hi1 : (i 1).val < 4 := (i 1).isLt
    have hi2 : (i 2).val < 8192 := (i 2).isLt
    have hN : cfg0.N = 128 := N_0
    have hp : 16 * (i 0).val + (i 2).val / 512 < cfg0.N := by omega
    refine ⟨⟨16 * (i 0).val + (i 2).val / 512, hp⟩, flush0_5 _, ?_⟩
    obtain ⟨e0, e1, e2⟩ := cols_index ⟨16 * (i 0).val + (i 2).val / 512, hp⟩
    show i ∈ ((View.whole main_v6_1).slice (win0_5.rect ⟨16 * (i 0).val + (i 2).val / 512, hp⟩)).set
    rw [View.set_slice_whole, Rect.mem_set_unit]
    intro a
    match a with
    | ⟨0, _⟩ =>
      show win0_5.index _ (0 : Fin 3) * 1 ≤ (i 0).val ∧ (i 0).val < win0_5.index _ (0 : Fin 3) * 1 + 1
      rw [e0]; show (16 * (i 0).val + (i 2).val / 512) / 16 * 1 ≤ (i 0).val ∧ (i 0).val < (16 * (i 0).val + (i 2).val / 512) / 16 * 1 + 1
      omega
    | ⟨1, _⟩ =>
      show win0_5.index _ (1 : Fin 3) * 4 ≤ (i 1).val ∧ (i 1).val < win0_5.index _ (1 : Fin 3) * 4 + 4
      rw [e1]; omega
    | ⟨2, _⟩ =>
      show win0_5.index _ (2 : Fin 3) * 512 ≤ (i 2).val ∧ (i 2).val < win0_5.index _ (2 : Fin 3) * 512 + 512
      rw [e2]; show (16 * (i 0).val + (i 2).val / 512) % 16 * 512 ≤ (i 2).val ∧ (i 2).val < (16 * (i 0).val + (i 2).val / 512) % 16 * 512 + 512
      omega

/-- THE HOST'S MINIMUM over the eight slabs is the reference's second result. -/
theorem colMin_host :
    Host.reduce (s := S8x4x8192) (t := S4x8192) FloatOps.minimumf (colPartArr m c) (constant (F := Ideal) S_ .f32 0x7F800000#32) reducesTo_S8x4x8192_S4x8192_d0 h_S_
      = Cert.ReferenceIdeal.Read.val_main_v16 (F := Ideal) (argSrc m c) (argDst m c) := by
  refine funext fun (j : S4x8192.Idx) => ?_
  obtain ⟨b, k, rfl⟩ : ∃ (b : Fin 4) (k : Fin 8192), j = ix2 b k := ⟨j 0, j 1, eq_ix2 j⟩
  rw [Host.reduce_eq_fold_single (s := S8x4x8192) (t := S4x8192) (FloatOps.minimumf (F := Ideal) (φ := .f32)) (colPartArr m c : S8x4x8192.Idx → EReal) (constant (F := Ideal) S_ .f32 0x7F800000#32)
    reducesTo_S8x4x8192_S4x8192_d0 (by decide : S8x4x8192.Reduces [0] S4x8192) h_S_ (ix2 b k)]
  show Finset.fold min (Ideal.ofBits .f32 0x7F800000#32) _ _ = _
  rw [MinFold.ofBits_inf_f32, Cert.ReferenceIdeal.Chamfer.colMin_apply]
  refine MinFold.eq_fold_min_top_of_le_iff _ _ fun e => ?_
  rw [MinFold.le_fold_min_top]
  constructor
  · intro H n
    have hn : n.val < 8192 := n.isLt
    have h1 := H (⟨n.val / 1024, by omega⟩ : Fin 8) (Finset.mem_univ _)
    have h2 : e ≤ colPart m c ⟨n.val / 1024, by omega⟩ b k := h1
    have h3 := (MinFold.le_fold_min_top _ _ _).mp h2 (⟨n.val % 1024, by omega⟩ : Fin 1024) (Finset.mem_univ _)
    have hr : rowIn ⟨n.val / 1024, by omega⟩ ⟨n.val % 1024, by omega⟩ = n := Fin.ext (by show 1024 * (n.val / 1024) + n.val % 1024 = n.val; omega)
    rw [hr] at h3
    exact h3
  · intro H i _
    show e ≤ colPart m c i b k
    rw [MinFold.le_fold_min_top]
    intro r _
    exact H (rowIn i r)

end Cert.KernelIdeal.Chamfer

end
-- ==== Proof.Ideal.Result.lean ====
import proofs.«160890_j77094662964081_2_alg».proof.Proof.Ideal.RowMin
import proofs.«160890_j77094662964081_2_alg».proof.Proof.Ideal.ColMin
import Idealize.ShloMosaic.Lib.StableHlo.Run

set_option maxRecDepth 16384

noncomputable section

namespace Cert.KernelIdeal.Chamfer

open Idealize.ShloMosaic Idealize.ShloMosaic.TcCoe Idealize.ShloMosaic.ValueIdx Idealize.SL.Sem
open Idealize.ShloMosaic.Pipeline (Dat Cfg Window)
open Cert.KernelIdeal Cert.KernelIdeal.Gen
open Idealize.ShloMosaic.Tactic
variable (m : (ℓ : Loc nD τ sig) → Buf (Elt Ideal) ℓ) (c : Dev nD)

variable (ρ : Dev nD → PrngReg)

/-! ## The kernel's result

After the region the host takes the minimum of the partial column minima over the eight slabs, the mean over the
8192 points of each of the two minimum arrays, adds the two means per batch and takes the mean over the 4 batches.
The first result array is the reference's row minimum and the host's minimum of the second is the reference's
column minimum, and from there on the two programs apply the same operations with the same constants: the kernel's
result is the reference's last stage of the two argument arrays. -/

/-- The buffer the program returns, after the host operations that follow the region. -/
theorem result_eq :
    Pipeline.afterTail₀ cfgs (dats m) 0 (V0 m) [hostOps1] c main_v16
      = Cert.ReferenceIdeal.Read.val_main_v25 (F := Ideal) (argSrc m c) (argDst m c) := by
  unfold Pipeline.afterTail₀
  show StableHlo.after hostOps1 _ (Proc.devRef .tc main_v16) = _
  after_results
  have hr : Pipeline.withArrays (cfgs 0).spec c (V0 m c) (fun w => (dats m 0 c).arrAt w (cfgs 0).N) (Proc.devRef .tc main_v6_0)
      = rowMinArr m c := (Pipeline.withArrays_arr spec0 launch0.win.arr_inj c _ _ 4).trans (rows_final m c)
  have hc : Pipeline.withArrays (cfgs 0).spec c (V0 m c) (fun w => (dats m 0 c).arrAt w (cfgs 0).N) (Proc.devRef .tc main_v6_1)
      = colPartArr m c := (Pipeline.withArrays_arr spec0 launch0.win.arr_inj c _ _ 5).trans (cols_final m c)
  rw [hr, hc, colMin_host]
  rfl

/-- THE KERNEL'S RUN, read: it terminates with its result at the reference's last stage of the argument arrays, and
    the argument arrays unchanged. -/
theorem kernel_run : θ_run defs (onTc (τ := τ) (main (F := Ideal))) ⟨m, fun _ => 0, ρ⟩ (fun r => ∀ c : Dev nD,
      r.2.mem ((c.tc : Thread nD τ).loc main_v16) = Cert.ReferenceIdeal.Read.val_main_v25 (F := Ideal) (argSrc m c) (argDst m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v16 (Pipeline.mem_restRefs_of main_v16 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Chamfer

end
-- ==== Proof.lean ====
/-
  The chamfer distance between two clouds of 8192 points in each of 4 batches, as a tiled kernel and as one
  whole-array computation, agree over the extended reals.

  With `D[b, n, k] = max ((|x[b,n]|² + |y[b,k]|²) − 2·⟨x[b,n], y[b,k]⟩) 0`, both programs return the mean over the
  batches of `mean_n (min_k D) + mean_k (min_n D)`. The kernel walks an 8 × 16 grid of tiles of 1024 × 512 pairs: it keeps
  the row minimum of a row of sixteen tiles in its output block (stored at the first tile, folded by `min` at the later
  ones, written back after the last), writes each tile's column minimum to a partial array of eight slabs, and the
  host takes the minimum over the slabs. Each tile entry is the reference's `D` at the matching row and column (the
  inner product's three terms in the same order, the same constants), a minimum accumulated tile by tile is the
  minimum of the whole row by the universal property of `min`, likewise the minimum over slabs of minima over a slab's
  rows; no law used needs finiteness, so the precondition is not opened. After the minima the two programs apply the
  same operations.

  The three frames: the two kernels' bodies are run symbolically in their two branches and launched over the grid;
  the reference is a straight-line host program.
-/
import proofs.«160890_j77094662964081_2_alg».proof.Defs
import proofs.«160890_j77094662964081_2_alg».proof.Proof.Gen.Kernel
import proofs.«160890_j77094662964081_2_alg».proof.Proof.Gen.KernelIdeal
import proofs.«160890_j77094662964081_2_alg».proof.Proof.Gen.ReferenceIdeal
import proofs.«160890_j77094662964081_2_alg».proof.Proof.Gen.ReferenceIdeal.Run
import proofs.«160890_j77094662964081_2_alg».proof.Proof.Gen.ReferenceIdeal.Read
import proofs.«160890_j77094662964081_2_alg».proof.Proof.Gen.Pre_finite_inputs
import proofs.«160890_j77094662964081_2_alg».proof.Proof.Bits.Data
import proofs.«160890_j77094662964081_2_alg».proof.Proof.Ideal.Result

noncomputable section

namespace Cert.Proof

open Idealize.ShloMosaic Idealize.ShloMosaic.TcCoe Idealize.SL.Sem

/-- The word-level kernel runs to the end, faults nowhere and leaves its arguments unchanged. -/
theorem frame_kernel : Cert.frame_Kernel := fun m ρ _ => Cert.Kernel.Chamfer.frame (F := Bits) m ρ

/-- So does the kernel read over the extended reals. -/
theorem frame_kernelIdeal : Cert.frame_KernelIdeal := fun m ρ _ => Cert.KernelIdeal.Chamfer.frame (F := Ideal) m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two clouds, both programs end with the same number: the kernel's run ends at the
    reference's last stage of its own arguments, which are the reference's. -/
theorem algebraic : Cert.algebraic_KernelIdeal_ReferenceIdeal := by
  intro m ρ m' ρ' _ hagree
  refine ⟨fun c => Cert.ReferenceIdeal.Read.val_main_v25 (F := Ideal) (Cert.KernelIdeal.Chamfer.argSrc m c) (Cert.KernelIdeal.Chamfer.argDst m c),
    Cert.KernelIdeal.Chamfer.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Read.val_main_v25_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
